-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S8192x1 : Shape := ⟨2, ![8192, 1]⟩
abbrev S1x128 : Shape := ⟨2, ![1, 128]⟩
abbrev S512x8192 : Shape := ⟨2, ![512, 8192]⟩
abbrev S512x1 : Shape := ⟨2, ![512, 1]⟩
abbrev S512 : Shape := ⟨1, ![512]⟩
abbrev S1024x128 : Shape := ⟨2, ![1024, 128]⟩
abbrev S1024x1 : Shape := ⟨2, ![1024, 1]⟩
abbrev S1024x1024 : Shape := ⟨2, ![1024, 1024]⟩

abbrev nBuf : Space → Nat
  | .hbm => 9
  | .vmem => 21
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x1, .f32⟩
  | .hbm, ⟨5, _⟩ => ⟨S128x128, .f32⟩
  | .hbm, ⟨6, _⟩ => ⟨S1x128, .f32⟩
  | .hbm, ⟨7, _⟩ => ⟨S8192x128, .f32⟩
  | .hbm, ⟨8, _⟩ => ⟨S8192x128, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S1x128, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | .local _ .vmem, ⟨13, _⟩ => ⟨S1024x1024, .f32⟩
  | .local _ .vmem, ⟨14, _⟩ => ⟨S1024x128, .f32⟩
  | .local _ .vmem, ⟨15, _⟩ => ⟨S1024x128, .f32⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 8], ![false, false]⟩

def k2_cond3 (i : grid2.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_9 : BitVec 32 := 0#32
  let v19 : BitVec 1 := Scalar.cmpi .ne v18 c0_i32_9
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  transposes_S128x128_S128x128_1_0 : S128x128.Transposes [1, 0] S128x128
  shapeCasts_S128_S1x128 : S128.ShapeCasts S1x128
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v0) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond3 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S128x128, .f32⟩
  | .hbm, ⟨24, _⟩ => ⟨S8192x128, .f32⟩
  | .hbm, ⟨25, _⟩ => ⟨S1x128, .f32⟩
  | .hbm, ⟨26, _⟩ => ⟨S8192x128, .f32⟩
  | .hbm, ⟨27, _⟩ => ⟨S8192x128, .f32⟩
  | .hbm, ⟨28, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Kernel.RowSums.lean ====
/-
  The first of the three grid computations: the degree column.  Sixteen grid points; at each one a
  512 x 8192 band of the adjacency matrix is brought in, every row of the band is summed, one is added
  (the identity's diagonal entry) and the reciprocal square root is taken; the resulting 512 x 1 piece is
  sent back to the degree column.  This file says, for any float interpretation and for any contents of
  the core's buffers on entry, what each of the two staging buffers holds before and after the body at a
  grid point, and proves that the body does exactly that.
-/
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

/-! ## The two windows' pieces of their arrays -/

/-- The piece of window `w`'s array that belongs to grid point `t`, read from the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency band is brought in afresh at every point, so whatever proof data we use — as long as its
    array is the entry contents and its body leaves the band alone — the band's staging buffer holds the
    band of point `t` when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches -/

/-- The whole 512 x 8192 band: the body's one read of the adjacency. -/
abbrev r0_0 : Rect S512x8192 := Rect.unit (s := S512x8192) ![0, 0] S512x8192.size inb_S512x8192_S512x8192_0_0
/-- The whole 512 x 1 piece of the degree column: the body's one write (and one unused read). -/
abbrev r0_1 : Rect S512x1 := Rect.unit (s := S512x1) ![0, 0] S512x1.size inb_S512x1_S512x1_0_0

/-! ## What the body leaves in the degree piece -/

/-- The degree piece after the body, as a function of the band `x0`: a single write, of the reciprocal
    square root of (row sums + 1), over the whole piece. -/
def out0_1 (x0 : Vec F S512x8192 .f32) : Vec F S512x1 .f32 :=
  View.canon [⟨r0_1, k0_pay1 (View.ld x0 r0_0)⟩]

/-- That single write reaches every entry of the piece. -/
theorem cover0_1 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body as a Hoare triple -/

set_option maxHeartbeats 1000000 in
/-- Run on a band buffer holding `x0` and a degree-piece buffer holding anything, the body ends with the band
    untouched and the degree piece equal to `out0_1 x0`.  The body reads the band, reads the old degree piece
    (the value is discarded) and writes the new one. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_rowsum_kernel i arg1 harg1 arg2 harg2) K := by
  simp only [cc0_rowsum_kernel_eq_skeleton]; unfold cc0_rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data of this grid computation -/

/-- On core `c`: the arrays are the entry contents; after the body at point `t` the band's buffer still holds
    the band and the degree piece's buffer holds `out0_1` of the band; nothing else is touched, nothing is
    owed, and every buffer is held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The band's buffer holds the band of point `t` when the body starts. -/
theorem before0_0 (c : Dev nD) (t : Fin cfg0.N) (d) : (dat0 V c).before 0 t d = iblk0 V c 0 t :=
  before0_0_of V (dat0 V c) (A_eq0 V c 0) (after0_0 V c) t d

/-! ## The body's obligation at an arbitrary grid point -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- At any point the band's buffer holds the band, so the triple above applies; the untouched rest and the
    (empty) debt pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The obligation in the form the pipeline's soundness theorem asks for. -/
theorem body_obligation0 (c : Dev nD) : BodyObligation (dat0 (F := F) V c) (defs₀ (F := F)) Variants.none () Set.univ := fun t => by
  rw [bigSep_W0, bigSep_W0]
  exact sound_body0 V c t

end Cert.Kernel.Hand
end
-- ==== Proof.Kernel.Support.lean ====
/-
  The second of the three grid computations: the row-scaled support.  Eight grid points; at each one a
  1024 x 128 band of the features is brought in together with the matching 1024 x 1 piece of the degree
  column, while the 128 x 128 transposed weight and the 1 x 128 bias row are brought in once, at the first
  point, and stay.  The body multiplies the band by the weight, adds the bias to every row, scales row r by
  the degree entry of row r and writes the 1024 x 128 result, which is then sent back.  This file says, for
  any float interpretation and any contents of the core's buffers on entry, what each of the five staging
  buffers holds before and after the body at a grid point, and proves that the body does exactly that.
-/
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

/-! ## The five windows' pieces of their arrays -/

/-- The piece of window `w`'s array that belongs to grid point `t`, read from the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature band is brought in afresh at every point: its staging buffer holds the band of point `t` when
    the body starts, for any proof data whose array is the entry contents and whose body leaves the band alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight is brought in at the first point only.  At a later point nothing has been transferred, but the
    piece wanted there is the same (the whole matrix), and the body has left it alone: so the buffer still
    holds the piece of point `t`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row likewise: brought in once, wanted whole at every point, never written by the body. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The degree piece is brought in afresh at every point, like the feature band. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches (each one a whole staging buffer) -/

/-- The 1024 x 128 feature band (read) — and, the shape being the same, the 1024 x 128 result (written, and
    read once with the value discarded). -/
abbrev r1_0 : Rect S1024x128 := Rect.unit (s := S1024x128) ![0, 0] S1024x128.size inb_S1024x128_S1024x128_0_0
/-- The 128 x 128 transposed weight. -/
abbrev r1_1 : Rect S128x128 := Rect.unit (s := S128x128) ![0, 0] S128x128.size inb_S128x128_S128x128_0_0
/-- The 1 x 128 bias row. -/
abbrev r1_2 : Rect S1x128 := Rect.unit (s := S1x128) ![0, 0] S1x128.size inb_S1x128_S1x128_0_0
/-- The 1024 x 1 degree piece. -/
abbrev r1_3 : Rect S1024x1 := Rect.unit (s := S1024x1) ![0, 0] S1024x1.size inb_S1024x1_S1024x1_0_0

/-! ## What the body leaves in the result buffer -/

/-- The result buffer after the body, as a function of the band `x0`, the weight `x1`, the bias row `x2` and
    the degree piece `x3`: a single write over the whole buffer. -/
def out1_4 (x0 : Vec F S1024x128 .f32) (x1 : Vec F S128x128 .f32) (x2 : Vec F S1x128 .f32) (x3 : Vec F S1024x1 .f32) : Vec F S1024x128 .f32 :=
  View.canon [⟨r1_0, k1_pay1 (View.ld x0 r1_0) (View.ld x1 r1_1) (View.ld x2 r1_2) (View.ld x3 r1_3)⟩]

/-- That single write reaches every entry of the buffer. -/
theorem cover1_4 (p0 : Vec F S1024x128 .f32) (y : S1024x128.Idx) :
    ∃ pc ∈ ([⟨r1_0, p0⟩] : List (View.Piece (Elt F) S1024x128 .f32)), y ∈ pc.1.set :=
  View.cover_of_tiled [⟨r1_0, p0⟩] S1024x128.size (by rfl) y

/-! ## The body as a Hoare triple -/

set_option maxHeartbeats 1000000 in
/-- Run on four input buffers holding `x0 … x3` and a result buffer holding anything, the body ends with the
    inputs untouched and the result buffer equal to `out1_4 x0 x1 x2 x3`.  It reads the four inputs, reads the
    old result (discarded) and writes the new one. -/
theorem sound_kernel1 (c : Dev nD) (E : Set ℕ) (i : grid1.Coords)
    (arg1 : Memref sig .tc .vmem S1024x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1024x1 .f32) (harg4 : arg4.IsWhole)
    (arg5 : Memref sig .tc .vmem S1024x128 .f32) (harg5 : arg5.IsWhole)
    (x0 : Vec F S1024x128 .f32) (x1 : Vec F S128x128 .f32) (x2 : Vec F S1x128 .f32) (x3 : Vec F S1024x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1_support_kernel i arg1 harg1 arg2 harg2 arg3 harg3 arg4 harg4 arg5 harg5) K := by
  simp only [cc1_support_kernel_eq_skeleton]; unfold cc1_support_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of this grid computation -/

/-- On core `c`: the arrays are the entry contents; after the body at point `t` each input buffer still holds
    its piece and the result buffer holds `out1_4` of the four pieces; nothing else is touched, nothing is
    owed, and every buffer is held in full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input buffer holds its piece of point `t` when the body starts, transferred there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's obligation at an arbitrary grid point -/

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the four input buffers hold their pieces, so the triple above applies; the untouched rest and
    the (empty) debt pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation in the form the pipeline's soundness theorem asks for. -/
theorem body_obligation1 (c : Dev nD) : BodyObligation (dat1 (F := F) V c) (defs₀ (F := F)) Variants.none () Set.univ := fun t => by
  rw [bigSep_W1, bigSep_W1]
  exact sound_body1 V c t

end Cert.Kernel.Hand
end
-- ==== Proof.Kernel.Aggregate.Base.lean ====
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

/-!
  The aggregation call: what its 64 grid points share.

  The grid is 8 x 8, point t = 8 i + j with the column tile j moving fastest. At a point the body sees
  the 1024 x 1024 tile (i, j) of the adjacency matrix, the 1024 rows of tile j of the scaled support,
  the 1024 entries of tile i of the scaling column, the 1024 x 128 result tile of row tile i, and a
  1024 x 128 accumulator of its own that lives across the points of one row tile.

  Here: each operand's block at a point read off the arrays as the call finds them; the three tests
  the body makes on its coordinates (j = 0, j = i, j = 7) as arithmetic on the point's number; where
  the result tile is left untouched; and the class invariant with the accumulator taken out of it.
-/
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Stores and loads of a whole buffer -/

section WholeBuffer
variable {Val : EltTy → Type} [∀ e, Nonempty (Val e)] {S : Shape} {e : EltTy} {sig' : RefSig} {κ : Kind} {sp : Space}

/-- After a store of the whole buffer, the buffer reads as what was stored, whatever was stored before. -/
theorem read_writes_cons_unit_zero (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

/-- A load of the whole buffer after a store of the whole buffer reads what was stored. -/
theorem readCov_cons_unit_zero (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- The zero offsets of a two-axis buffer. -/
theorem hz2 : (![0, 0] : Fin 2 → ℕ) = fun _ => 0 := by funext a; fin_cases a <;> rfl

end WholeBuffer

variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

/-! ## The operands' blocks -/

/-- Operand w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency tile is in its buffer at every point: it is fetched at every point and the body only reads it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- So is the support tile. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The scaling column's tile is fetched only when the row tile changes (j = 0); in between its block index does
    not move and the body only reads it, so the buffer still holds the block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's three tests on the coordinates -/

/-- j = 0: the first column tile of a row tile (the accumulator is zeroed). -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- j = i: the column tile that holds the diagonal of this row tile (the support's own rows are added). -/
abbrev cond2_1 (i : grid2.Coords) : Prop :=
  (Scalar.cmpi .ne (Scalar.extui (Scalar.cmpi .eq (BitVec.ofNat 32 (i 1).val) (BitVec.ofNat 32 (i 0).val))) 0#32) = 1#1
theorem hcond2_1 : ∀ t : Fin cfg2.N, cond2_1 (grid2.coords t) ↔ t.val % 8 = t.val / 8 :=
  (by decide +kernel : ∀ t : Fin grid2.N, cond2_1 (grid2.coords t) ↔ t.val % 8 = t.val / 8)

/-- j = 7: the last column tile (the scaled accumulator is stored as the result tile). -/
abbrev cond2_2 (i : grid2.Coords) : Prop := k2_cond3 i = 1#1
theorem hcond2_2 : ∀ t : Fin cfg2.N, cond2_2 (grid2.coords t) ↔ t.val % 8 = 7 :=
  (by decide +kernel : ∀ t : Fin grid2.N, cond2_2 (grid2.coords t) ↔ t.val % 8 = 7)

/-! ## Where the result tile is left untouched -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before the last column tile nothing is stored into the result tile, -/
theorem idleAt2_3 : ∀ t : Fin cfg2.N, ¬cond2_2 (grid2.coords t) → cfg2.idle 3 (grid2.coords t) = true := by decide +kernel
/-- and it is not written back there; -/
theorem noFlush2_3 : ∀ t : Fin cfg2.N, ¬cond2_2 (grid2.coords t) → (cfg2.win 3).flush t = false := by decide +kernel
/-- at the last column tile it is stored. -/
theorem liveAt2_3 : ∀ t : Fin cfg2.N, cond2_2 (grid2.coords t) → cfg2.idle 3 (grid2.coords t) = false := by decide +kernel

/-! ## The buffers the body is called on -/

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
/-- The accumulator: a whole buffer of the call's own, passed beside the staged operands. -/
abbrev scM2 : Memref sig .tc .vmem S1024x128 .f32 := Memref.whole cc2_scratch0

/-- The core's other scoped buffers (the other two calls' staging buffers), which this call never opens. -/
abbrev others2 (c : Dev nD) : sProp 𝕄 :=
  Pipeline.scopedRestBut (Ix := Unit) (Name := ℕ) (U := UR sig nD τ) (Lvl := ℕ) (Val := Elt F) spec2 c [cc2_scratch0]

/-- The class invariant with the accumulator named: the accumulator at some contents, the other scoped buffers,
    the generator register at some state. -/
theorem PhiA2_eq (c : Dev nD) :
    (Pipeline.ΦA spec2 c : sProp 𝕄)
      = iprop(((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [bigSepL_singleton, scM2, owns_whole]; try rfl

end Cert.Kernel.Hand
end
-- ==== Proof.Kernel.Aggregate.RunFFF.lean ====
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.Kernel.Aggregate.Base

/-!
  The body at a point that is not the first column tile (the accumulator is carried over), off the diagonal, not the last column tile (the result tile is left as it was).
-/
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_FFF (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : ¬cond2_0 i) (hc1 : ¬cond2_1 i) (hc2 : ¬cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo
            ∗ owns (c : Thread nD τ) arg6 fullShare (k2_pay2 xs xA xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.Kernel.Hand
end
-- ==== Proof.Kernel.Aggregate.RunFFT.lean ====
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.Kernel.Aggregate.Base

/-!
  The body at a point that is not the first column tile (the accumulator is carried over), off the diagonal, the last column tile (the accumulator, scaled row by row, is stored as the result tile).
-/
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_FFT (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : ¬cond2_0 i) (hc1 : ¬cond2_1 i) (hc2 : cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare (k2_pay4 xd (k2_pay2 xs xA xS))
            ∗ owns (c : Thread nD τ) arg6 fullShare (k2_pay2 xs xA xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_cons_unit_zero (S := S1024x128) _ _ hz2]
    simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.Kernel.Hand
end
-- ==== Proof.Kernel.Aggregate.RunFTF.lean ====
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.Kernel.Aggregate.Base

/-!
  The body at a point that is not the first column tile (the accumulator is carried over), the column tile of the diagonal (the support tile's own rows are added after the product), not the last column tile (the result tile is left as it was).
-/
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_FTF (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : ¬cond2_0 i) (hc1 : cond2_1 i) (hc2 : ¬cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo
            ∗ owns (c : Thread nD τ) arg6 fullShare (k2_pay3 (k2_pay2 xs xA xS) xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.Kernel.Hand
end
-- ==== Proof.Kernel.Aggregate.RunFTT.lean ====
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.Kernel.Aggregate.Base

/-!
  The body at a point that is not the first column tile (the accumulator is carried over), the column tile of the diagonal (the support tile's own rows are added after the product), the last column tile (the accumulator, scaled row by row, is stored as the result tile).
-/
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_FTT (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : ¬cond2_0 i) (hc1 : cond2_1 i) (hc2 : cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare (k2_pay4 xd (k2_pay3 (k2_pay2 xs xA xS) xS))
            ∗ owns (c : Thread nD τ) arg6 fullShare (k2_pay3 (k2_pay2 xs xA xS) xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_cons_unit_zero (S := S1024x128) _ _ hz2]
    simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.Kernel.Hand
end
-- ==== Proof.Kernel.Aggregate.RunTFF.lean ====
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.Kernel.Aggregate.Base

/-!
  The body at a point that is the first column tile of a row tile (the accumulator is zeroed first), off the diagonal, not the last column tile (the result tile is left as it was).
-/
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_TFF (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : cond2_0 i) (hc1 : ¬cond2_1 i) (hc2 : ¬cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo
            ∗ owns (c : Thread nD τ) arg6 fullShare (k2_pay2 (k2_pay1 (F := F)) xA xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.Kernel.Hand
end
-- ==== Proof.Kernel.Aggregate.RunTTF.lean ====
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.Kernel.Aggregate.Base

/-!
  The body at a point that is the first column tile of a row tile (the accumulator is zeroed first), the column tile of the diagonal (the support tile's own rows are added after the product), not the last column tile (the result tile is left as it was).
-/
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_TTF (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : cond2_0 i) (hc1 : cond2_1 i) (hc2 : ¬cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo
            ∗ owns (c : Thread nD τ) arg6 fullShare (k2_pay3 (k2_pay2 (k2_pay1 (F := F)) xA xS) xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.Kernel.Hand
end
-- ==== Proof.Kernel.Aggregate.lean ====
import proofs.«155826_j5798205849837_2_alg».proof.Proof.Gen.Kernel.Launch
import proofs.«155826_j5798205849837_2_alg».proof.Proof.Gen.Kernel.Skeleton
import proofs.«155826_j5798205849837_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«155826_j5798205849837_2_alg».proof.Proof.Kernel.Aggregate.RunFFF
import proofs.«155826_j5798205849837_2_alg».proof.Proof.Kernel.Aggregate.RunFFT
import proofs.«155826_j5798205849837_2_alg».proof.Proof.Kernel.Aggregate.RunFTF
import proofs.«155826_j5798205849837_2_alg».proof.Proof.Kernel.Aggregate.RunFTT
import proofs.«155826_j5798205849837_2_alg».proof.Proof.Kernel.Aggregate.RunTFF
import proofs.«155826_j5798205849837_2_alg».proof.Proof.Kernel.Aggregate.RunTTF

/-!
  The aggregation call's half of the run: the proof data of its pipeline at the contents the call finds,
  and the body obligation.

  The body carries a 1024 x 128 accumulator from point to point. Within a row tile i the points j = 0..7 do:
  zero it when j = 0; add the product of the adjacency tile (i, j) with the support tile j; add the support
  tile itself when j = i; and when j = 7 scale its rows by the scaling tile i and store that as the result tile,
  which the pipeline then writes back. So what the accumulator holds after a point is a function of what it held
  before and of the two tiles (accStep), and the invariant between points is the class invariant with the
  accumulator held at the contents the last point left.
-/
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

/-! ## The accumulator from point to point -/

/-- The accumulator after the body at point n, from what it held before (s), the adjacency tile A and the
    support tile S: zeroed first when the column tile is the first; the product added; the support tile added
    when the column tile is the diagonal's. -/
def accStep (n : ℕ) (s : Vec F S1024x128 .f32) (A : Vec F S1024x1024 .f32) (S : Vec F S1024x128 .f32) : Vec F S1024x128 .f32 :=
  if n % 8 = n / 8 then k2_pay3 (k2_pay2 (if n % 8 = 0 then k2_pay1 else s) A S) S
  else k2_pay2 (if n % 8 = 0 then k2_pay1 else s) A S

/-- At the first column tile what the accumulator held before does not matter. -/
theorem accStep_first (n : ℕ) (h : n % 8 = 0) (s s' : Vec F S1024x128 .f32) (A : Vec F S1024x1024 .f32) (S : Vec F S1024x128 .f32) :
    accStep n s A S = accStep n s' A S := by
  unfold accStep; simp only [if_pos h]

/-- The body at a point before the last column tile: the result tile's buffer is handed back as found. -/
theorem kernelRun2_idle (c : Dev nD) (t : Fin cfg2.N) (h2 : ¬t.val % 8 = 7)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo ∗ owns (c : Thread nD τ) arg6 fullShare (accStep t.val xs xA xS)) -∗ K ⟨⟩))
      ⊢ wp frame (wpE (defs₀ (F := F)) Variants.none c none) E (cc2_agg_kernel (grid2.coords t) arg2 harg2 arg3 harg3 arg4 harg4 arg5 harg5 arg6 harg6) K := by
  unfold accStep
  by_cases h0 : t.val % 8 = 0
  · by_cases h1 : t.val % 8 = t.val / 8
    · simp only [if_pos h0, if_pos h1]
      exact kernelRun2_TTF c (grid2.coords t) arg2 harg2 arg3 harg3 arg4 harg4 arg5 harg5 arg6 harg6 ((hcond2_0 t).mpr h0) ((hcond2_1 t).mpr h1) (fun h => h2 ((hcond2_2 t).mp h)) xA xS xd xo xs E K
    · simp only [if_pos h0, if_neg h1]
      exact kernelRun2_TFF c (grid2.coords t) arg2 harg2 arg3 harg3 arg4 harg4 arg5 harg5 arg6 harg6 ((hcond2_0 t).mpr h0) (fun h => h1 ((hcond2_1 t).mp h)) (fun h => h2 ((hcond2_2 t).mp h)) xA xS xd xo xs E K
  · by_cases h1 : t.val % 8 = t.val / 8
    · simp only [if_neg h0, if_pos h1]
      exact kernelRun2_FTF c (grid2.coords t) arg2 harg2 arg3 harg3 arg4 harg4 arg5 harg5 arg6 harg6 (fun h => h0 ((hcond2_0 t).mp h)) ((hcond2_1 t).mpr h1) (fun h => h2 ((hcond2_2 t).mp h)) xA xS xd xo xs E K
    · simp only [if_neg h0, if_neg h1]
      exact kernelRun2_FFF c (grid2.coords t) arg2 harg2 arg3 harg3 arg4 harg4 arg5 harg5 arg6 harg6 (fun h => h0 ((hcond2_0 t).mp h)) (fun h => h1 ((hcond2_1 t).mp h)) (fun h => h2 ((hcond2_2 t).mp h)) xA xS xd xo xs E K

/-- The body at a last column tile: the result tile's buffer is left at the accumulator scaled row by row. -/
theorem kernelRun2_live (c : Dev nD) (t : Fin cfg2.N) (h2 : t.val % 8 = 7)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare (k2_pay4 xd (accStep t.val xs xA xS)) ∗ owns (c : Thread nD τ) arg6 fullShare (accStep t.val xs xA xS)) -∗ K ⟨⟩))
      ⊢ wp frame (wpE (defs₀ (F := F)) Variants.none c none) E (cc2_agg_kernel (grid2.coords t) arg2 harg2 arg3 harg3 arg4 harg4 arg5 harg5 arg6 harg6) K := by
  have h0 : ¬t.val % 8 = 0 := by omega
  unfold accStep
  by_cases h1 : t.val % 8 = t.val / 8
  · simp only [if_neg h0, if_pos h1]
    exact kernelRun2_FTT c (grid2.coords t) arg2 harg2 arg3 harg3 arg4 harg4 arg5 harg5 arg6 harg6 (fun h => h0 ((hcond2_0 t).mp h)) ((hcond2_1 t).mpr h1) ((hcond2_2 t).mpr h2) xA xS xd xo xs E K
  · simp only [if_neg h0, if_neg h1]
    exact kernelRun2_FFT c (grid2.coords t) arg2 harg2 arg3 harg3 arg4 harg4 arg5 harg5 arg6 harg6 (fun h => h0 ((hcond2_0 t).mp h)) (fun h => h1 ((hcond2_1 t).mp h)) ((hcond2_2 t).mpr h2) xA xS xd xo xs E K

/-! ## What the accumulator and the result tile's buffer hold after each point -/

/-- The accumulator after the body at point n, by recursion on the point. -/
def scrAt2 (c : Dev nD) : (n : ℕ) → n < cfg2.N → Vec F S1024x128 .f32
  | 0, hn => accStep 0 (k2_pay1 (F := F)) (iblk2 V c 0 ⟨0, hn⟩) (iblk2 V c 1 ⟨0, hn⟩)
  | n + 1, hn => accStep (n + 1) (scrAt2 c n (Nat.lt_of_succ_lt hn)) (iblk2 V c 0 ⟨n + 1, hn⟩) (iblk2 V c 1 ⟨n + 1, hn⟩)

/-- At the first point, whatever the accumulator held before. -/
theorem scrAt2_zero (c : Dev nD) (t : Fin cfg2.N) (hz : t.val = 0) (d : Vec F S1024x128 .f32) :
    scrAt2 V c t.val t.isLt = accStep t.val d (iblk2 V c 0 t) (iblk2 V c 1 t) := by
  obtain ⟨n, hn⟩ := t
  obtain rfl : n = 0 := hz
  exact accStep_first 0 rfl _ _ _ _

/-- After the first point: one step from what the point before left. -/
theorem scrAt2_pos (c : Dev nD) (t : Fin cfg2.N) (hz : t.val ≠ 0) :
    scrAt2 V c t.val t.isLt
      = accStep t.val (scrAt2 V c (t.val - 1) (Nat.lt_of_le_of_lt (Nat.sub_le _ _) t.isLt)) (iblk2 V c 0 t) (iblk2 V c 1 t) := by
  obtain ⟨n, hn⟩ := t
  cases n with
  | zero => exact absurd rfl hz
  | succ n => rfl

/-- The result tile's buffer and the accumulator after the body at point n. The first component is what a last
    column tile's body stores (the accumulator scaled row by row by the scaling tile); at the other points the
    buffer is not stored into and nothing reads this component. -/
def outsAt2 (c : Dev nD) (n : ℕ) (hn : n < cfg2.N) : Vec F S1024x128 .f32 × Vec F S1024x128 .f32 :=
  (k2_pay4 (iblk2 V c 2 ⟨n, hn⟩) (scrAt2 V c n hn), scrAt2 V c n hn)

/-! ## The invariant between points -/

/-- Before the first point the class invariant (the accumulator at anything); afterwards the same with the
    accumulator at what the point before left. -/
def PhiS2 (c : Dev nD) : (n : ℕ) → n ≤ cfg2.N → sProp 𝕄
  | 0, _ => Pipeline.ΦA spec2 c
  | n + 1, hn => iprop((owns (c : Thread nD τ) scM2 fullShare (scrAt2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (scrAt2 V c n hn) ∗ others2 c) ∗ (∃ r, prngReg c r)) := rfl

theorem PhiS2_pos (c : Dev nD) (n : ℕ) (h : n ≤ cfg2.N) (hz : n ≠ 0) :
    PhiS2 V c n h = iprop((owns (c : Thread nD τ) scM2 fullShare (scrAt2 V c (n - 1) (by omega)) ∗ others2 c) ∗ (∃ r, prngReg c r)) := by
  cases n with
  | zero => exact absurd rfl hz
  | succ n => rfl

/-! ## The pipeline's proof data -/

/-- The arrays as the call finds them; after the body at a point each operand's buffer at its block and the result
    tile's at outsAt2's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point. The three operands' buffers hold their blocks. The invariant hands over the accumulator
    (at anything at the first point, else at what the point before left) and takes it back at this point's
    contents. Before the last column tile the result tile's buffer goes back as found; at the last it holds the
    scaled accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 64 := lt_of_lt_of_eq t.isLt (show cfg2.N = 64 from N_2)
  by_cases h2 : t.val % 8 = 7
  · have hz : t.val ≠ 0 := by omega
    rw [show (dat2 V c).leavesExact 3 t = owns (c : Thread nD τ) (ms2_3 t) fullShare ((dat2 V c).after 3 t) from by
      unfold Dat.leavesExact; rw [liveAt2_3 t ((hcond2_2 t).mpr h2)], after2_3]
    unfold outsAt2; dsimp only
    rw [scrAt2_pos V c t hz, PhiS2_castSucc V c t, PhiS2_pos V c _ _ hz]
    iintro ⟨⟨⟨HS, Hr⟩, Hg⟩, Ho, ⟨%d0, H0⟩, ⟨%d1, H1⟩, ⟨%d2, H2⟩, ⟨%d3, H3⟩⟩
    iapply (kernelRun2_live c t h2 _ _ _ _ _ _ _ _ _ _ (iblk2 V c 0 t) (iblk2 V c 1 t) (iblk2 V c 2 t) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t (fun h => h2 ((hcond2_2 t).mp h))) (noFlush2_3 t (fun h => h2 ((hcond2_2 t).mp h)))]
    by_cases hz : t.val = 0
    · rw [PhiS2_castSucc V c t, PhiS2_zero V c _ _ hz, PhiA2_eq]
      iintro ⟨⟨⟨⟨%ds, HS⟩, Hr⟩, Hg⟩, Ho, ⟨%d0, H0⟩, ⟨%d1, H1⟩, ⟨%d2, H2⟩, ⟨%d3, H3⟩⟩
      rw [scrAt2_zero V c t hz ds]
      iapply (kernelRun2_idle c t h2 _ _ _ _ _ _ _ _ _ _ (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [scrAt2_pos V c t hz, PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (kernelRun2_idle c t h2 _ _ _ _ _ _ _ _ _ _ (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class invariant back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hr⟩, Hg⟩
  isplitl [HS Hr]
  · isplitl [HS]
    · iexists _; iexact HS
    iexact Hr
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand
end
-- ==== Proof.Kernel.Run.lean ====
/-
  The run of @main: three kernel regions with one stretch of two host operations (the weight transposed,
  the bias laid out as a row) between the first and the second.

  The buffer contents at every boundary are a fold from the launch memory: a region leaves its arrays at
  what its write-backs leave (the inputs as entered, each output block by block) and every other buffer as
  it found it; the host stretch leaves what its operations compute. Each region is entered with every
  unscoped buffer held whole at the boundary's contents, beside the generator register and the core owing
  nothing; its arrays are split out, handed to the pipeline, and put back at the exit contents. The third
  region's invariant also holds the accumulator the kernel keeps between grid points: it is taken out of
  the scoped buffers at the first point and given back after the last.

  From the last boundary every unscoped buffer is read against the final memory: the four arguments walk
  back through the fold to the launch contents, and the result buffer holds the third region's output array.
-/
import proofs.«155826_j5798205849837_2_alg».proof.Proof.Kernel.RowSums
import proofs.«155826_j5798205849837_2_alg».proof.Proof.Kernel.Support
import proofs.«155826_j5798205849837_2_alg».proof.Proof.Kernel.Aggregate
import proofs.«155826_j5798205849837_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the row-sum region: the column of reciprocal roots written block by block, all else as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host operations. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the support region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the aggregation region: the end. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched

No host operation writes an argument; a region only reads one through an input window, whose array the
pipeline leaves as entered. -/

theorem W2_of (c : Dev nD) (r : Ref sig .tc) (h : r ∉ hostOps1_W) : W2 m ρ c r = W1 m ρ c r :=
  StableHlo.after_of_writes_sub hostOps1 _ hostOps1_writes h

/-- The features: an input window of the support region only. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl

/-- The adjacency: an input window of the row-sum region and of the aggregation region. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- The weight: read by the host transpose only. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

/-- The bias: read by the host reshape only. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl

/-! ## The proof data family and the thread state -/

abbrev adm : (p : Fin 3) → (pcfgs (F := F) p).Adm := fun p => (cfgs p).toPCfg_adm

/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers through every segment: the generator register at some state, the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The row-sum region: entered at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The support region: entered at `W2` (after the host stretch), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered at `W3`, left at `W4`; its invariant takes the accumulator out of the
    scoped buffers at the first point and gives it back after the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (V3 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]

theorem main_run (c : Dev nD) : main (F := F) c = Pipeline.Seg.run (segs m ρ) := (main_chain c).trans (by chain_rfl)

set_option backward.isDefEq.respectTransparency.types false in
/-- The run: from any memory with zero counters every weakly fair execution of @main terminates, nothing
    faulting, and in every final memory each unscoped buffer of core `c` holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

/-- The result buffer at the end holds the aggregation region's output array. -/
theorem result_eq (c : Dev nD) : W4 m ρ c (Proc.devRef .tc main_v0) = (dat2 (V3 m ρ) c).arrAt 3 cfg2.N :=
  W4_arr m ρ c 3

end Cert.Kernel.Hand
end
-- ==== Proof.KernelIdeal.RowSums.lean ====
/-
  The first of the three grid computations: the degree column.  Sixteen grid points; at each one a
  512 x 8192 band of the adjacency matrix is brought in, every row of the band is summed, one is added
  (the identity's diagonal entry) and the reciprocal square root is taken; the resulting 512 x 1 piece is
  sent back to the degree column.  This file says, for any float interpretation and for any contents of
  the core's buffers on entry, what each of the two staging buffers holds before and after the body at a
  grid point, and proves that the body does exactly that.
-/
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

/-! ## The two windows' pieces of their arrays -/

/-- The piece of window `w`'s array that belongs to grid point `t`, read from the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency band is brought in afresh at every point, so whatever proof data we use — as long as its
    array is the entry contents and its body leaves the band alone — the band's staging buffer holds the
    band of point `t` when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches -/

/-- The whole 512 x 8192 band: the body's one read of the adjacency. -/
abbrev r0_0 : Rect S512x8192 := Rect.unit (s := S512x8192) ![0, 0] S512x8192.size inb_S512x8192_S512x8192_0_0
/-- The whole 512 x 1 piece of the degree column: the body's one write (and one unused read). -/
abbrev r0_1 : Rect S512x1 := Rect.unit (s := S512x1) ![0, 0] S512x1.size inb_S512x1_S512x1_0_0

/-! ## What the body leaves in the degree piece -/

/-- The degree piece after the body, as a function of the band `x0`: a single write, of the reciprocal
    square root of (row sums + 1), over the whole piece. -/
def out0_1 (x0 : Vec F S512x8192 .f32) : Vec F S512x1 .f32 :=
  View.canon [⟨r0_1, k0_pay1 (View.ld x0 r0_0)⟩]

/-- That single write reaches every entry of the piece. -/
theorem cover0_1 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body as a Hoare triple -/

set_option maxHeartbeats 1000000 in
/-- Run on a band buffer holding `x0` and a degree-piece buffer holding anything, the body ends with the band
    untouched and the degree piece equal to `out0_1 x0`.  The body reads the band, reads the old degree piece
    (the value is discarded) and writes the new one. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_rowsum_kernel i arg1 harg1 arg2 harg2) K := by
  simp only [cc0_rowsum_kernel_eq_skeleton]; unfold cc0_rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data of this grid computation -/

/-- On core `c`: the arrays are the entry contents; after the body at point `t` the band's buffer still holds
    the band and the degree piece's buffer holds `out0_1` of the band; nothing else is touched, nothing is
    owed, and every buffer is held in full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The band's buffer holds the band of point `t` when the body starts. -/
theorem before0_0 (c : Dev nD) (t : Fin cfg0.N) (d) : (dat0 V c).before 0 t d = iblk0 V c 0 t :=
  before0_0_of V (dat0 V c) (A_eq0 V c 0) (after0_0 V c) t d

/-! ## The body's obligation at an arbitrary grid point -/

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- At any point the band's buffer holds the band, so the triple above applies; the untouched rest and the
    (empty) debt pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The obligation in the form the pipeline's soundness theorem asks for. -/
theorem body_obligation0 (c : Dev nD) : BodyObligation (dat0 (F := F) V c) (defs₀ (F := F)) Variants.none () Set.univ := fun t => by
  rw [bigSep_W0, bigSep_W0]
  exact sound_body0 V c t

end Cert.KernelIdeal.Hand
end
-- ==== Proof.KernelIdeal.Support.lean ====
/-
  The second of the three grid computations: the row-scaled support.  Eight grid points; at each one a
  1024 x 128 band of the features is brought in together with the matching 1024 x 1 piece of the degree
  column, while the 128 x 128 transposed weight and the 1 x 128 bias row are brought in once, at the first
  point, and stay.  The body multiplies the band by the weight, adds the bias to every row, scales row r by
  the degree entry of row r and writes the 1024 x 128 result, which is then sent back.  This file says, for
  any float interpretation and any contents of the core's buffers on entry, what each of the five staging
  buffers holds before and after the body at a grid point, and proves that the body does exactly that.
-/
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

/-! ## The five windows' pieces of their arrays -/

/-- The piece of window `w`'s array that belongs to grid point `t`, read from the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature band is brought in afresh at every point: its staging buffer holds the band of point `t` when
    the body starts, for any proof data whose array is the entry contents and whose body leaves the band alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight is brought in at the first point only.  At a later point nothing has been transferred, but the
    piece wanted there is the same (the whole matrix), and the body has left it alone: so the buffer still
    holds the piece of point `t`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row likewise: brought in once, wanted whole at every point, never written by the body. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The degree piece is brought in afresh at every point, like the feature band. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches (each one a whole staging buffer) -/

/-- The 1024 x 128 feature band (read) — and, the shape being the same, the 1024 x 128 result (written, and
    read once with the value discarded). -/
abbrev r1_0 : Rect S1024x128 := Rect.unit (s := S1024x128) ![0, 0] S1024x128.size inb_S1024x128_S1024x128_0_0
/-- The 128 x 128 transposed weight. -/
abbrev r1_1 : Rect S128x128 := Rect.unit (s := S128x128) ![0, 0] S128x128.size inb_S128x128_S128x128_0_0
/-- The 1 x 128 bias row. -/
abbrev r1_2 : Rect S1x128 := Rect.unit (s := S1x128) ![0, 0] S1x128.size inb_S1x128_S1x128_0_0
/-- The 1024 x 1 degree piece. -/
abbrev r1_3 : Rect S1024x1 := Rect.unit (s := S1024x1) ![0, 0] S1024x1.size inb_S1024x1_S1024x1_0_0

/-! ## What the body leaves in the result buffer -/

/-- The result buffer after the body, as a function of the band `x0`, the weight `x1`, the bias row `x2` and
    the degree piece `x3`: a single write over the whole buffer. -/
def out1_4 (x0 : Vec F S1024x128 .f32) (x1 : Vec F S128x128 .f32) (x2 : Vec F S1x128 .f32) (x3 : Vec F S1024x1 .f32) : Vec F S1024x128 .f32 :=
  View.canon [⟨r1_0, k1_pay1 (View.ld x0 r1_0) (View.ld x1 r1_1) (View.ld x2 r1_2) (View.ld x3 r1_3)⟩]

/-- That single write reaches every entry of the buffer. -/
theorem cover1_4 (p0 : Vec F S1024x128 .f32) (y : S1024x128.Idx) :
    ∃ pc ∈ ([⟨r1_0, p0⟩] : List (View.Piece (Elt F) S1024x128 .f32)), y ∈ pc.1.set :=
  View.cover_of_tiled [⟨r1_0, p0⟩] S1024x128.size (by rfl) y

/-! ## The body as a Hoare triple -/

set_option maxHeartbeats 1000000 in
/-- Run on four input buffers holding `x0 … x3` and a result buffer holding anything, the body ends with the
    inputs untouched and the result buffer equal to `out1_4 x0 x1 x2 x3`.  It reads the four inputs, reads the
    old result (discarded) and writes the new one. -/
theorem sound_kernel1 (c : Dev nD) (E : Set ℕ) (i : grid1.Coords)
    (arg1 : Memref sig .tc .vmem S1024x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1024x1 .f32) (harg4 : arg4.IsWhole)
    (arg5 : Memref sig .tc .vmem S1024x128 .f32) (harg5 : arg5.IsWhole)
    (x0 : Vec F S1024x128 .f32) (x1 : Vec F S128x128 .f32) (x2 : Vec F S1x128 .f32) (x3 : Vec F S1024x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1_support_kernel i arg1 harg1 arg2 harg2 arg3 harg3 arg4 harg4 arg5 harg5) K := by
  simp only [cc1_support_kernel_eq_skeleton]; unfold cc1_support_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of this grid computation -/

/-- On core `c`: the arrays are the entry contents; after the body at point `t` each input buffer still holds
    its piece and the result buffer holds `out1_4` of the four pieces; nothing else is touched, nothing is
    owed, and every buffer is held in full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input buffer holds its piece of point `t` when the body starts, transferred there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's obligation at an arbitrary grid point -/

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the four input buffers hold their pieces, so the triple above applies; the untouched rest and
    the (empty) debt pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation in the form the pipeline's soundness theorem asks for. -/
theorem body_obligation1 (c : Dev nD) : BodyObligation (dat1 (F := F) V c) (defs₀ (F := F)) Variants.none () Set.univ := fun t => by
  rw [bigSep_W1, bigSep_W1]
  exact sound_body1 V c t

end Cert.KernelIdeal.Hand
end
-- ==== Proof.KernelIdeal.Aggregate.Base.lean ====
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

/-!
  The aggregation call: what its 64 grid points share.

  The grid is 8 x 8, point t = 8 i + j with the column tile j moving fastest. At a point the body sees
  the 1024 x 1024 tile (i, j) of the adjacency matrix, the 1024 rows of tile j of the scaled support,
  the 1024 entries of tile i of the scaling column, the 1024 x 128 result tile of row tile i, and a
  1024 x 128 accumulator of its own that lives across the points of one row tile.

  Here: each operand's block at a point read off the arrays as the call finds them; the three tests
  the body makes on its coordinates (j = 0, j = i, j = 7) as arithmetic on the point's number; where
  the result tile is left untouched; and the class invariant with the accumulator taken out of it.
-/
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Stores and loads of a whole buffer -/

section WholeBuffer
variable {Val : EltTy → Type} [∀ e, Nonempty (Val e)] {S : Shape} {e : EltTy} {sig' : RefSig} {κ : Kind} {sp : Space}

/-- After a store of the whole buffer, the buffer reads as what was stored, whatever was stored before. -/
theorem read_writes_cons_unit_zero (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

/-- A load of the whole buffer after a store of the whole buffer reads what was stored. -/
theorem readCov_cons_unit_zero (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- The zero offsets of a two-axis buffer. -/
theorem hz2 : (![0, 0] : Fin 2 → ℕ) = fun _ => 0 := by funext a; fin_cases a <;> rfl

end WholeBuffer

variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

/-! ## The operands' blocks -/

/-- Operand w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency tile is in its buffer at every point: it is fetched at every point and the body only reads it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- So is the support tile. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The scaling column's tile is fetched only when the row tile changes (j = 0); in between its block index does
    not move and the body only reads it, so the buffer still holds the block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's three tests on the coordinates -/

/-- j = 0: the first column tile of a row tile (the accumulator is zeroed). -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- j = i: the column tile that holds the diagonal of this row tile (the support's own rows are added). -/
abbrev cond2_1 (i : grid2.Coords) : Prop :=
  (Scalar.cmpi .ne (Scalar.extui (Scalar.cmpi .eq (BitVec.ofNat 32 (i 1).val) (BitVec.ofNat 32 (i 0).val))) 0#32) = 1#1
theorem hcond2_1 : ∀ t : Fin cfg2.N, cond2_1 (grid2.coords t) ↔ t.val % 8 = t.val / 8 :=
  (by decide +kernel : ∀ t : Fin grid2.N, cond2_1 (grid2.coords t) ↔ t.val % 8 = t.val / 8)

/-- j = 7: the last column tile (the scaled accumulator is stored as the result tile). -/
abbrev cond2_2 (i : grid2.Coords) : Prop := k2_cond3 i = 1#1
theorem hcond2_2 : ∀ t : Fin cfg2.N, cond2_2 (grid2.coords t) ↔ t.val % 8 = 7 :=
  (by decide +kernel : ∀ t : Fin grid2.N, cond2_2 (grid2.coords t) ↔ t.val % 8 = 7)

/-! ## Where the result tile is left untouched -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Before the last column tile nothing is stored into the result tile, -/
theorem idleAt2_3 : ∀ t : Fin cfg2.N, ¬cond2_2 (grid2.coords t) → cfg2.idle 3 (grid2.coords t) = true := by decide +kernel
/-- and it is not written back there; -/
theorem noFlush2_3 : ∀ t : Fin cfg2.N, ¬cond2_2 (grid2.coords t) → (cfg2.win 3).flush t = false := by decide +kernel
/-- at the last column tile it is stored. -/
theorem liveAt2_3 : ∀ t : Fin cfg2.N, cond2_2 (grid2.coords t) → cfg2.idle 3 (grid2.coords t) = false := by decide +kernel

/-! ## The buffers the body is called on -/

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
/-- The accumulator: a whole buffer of the call's own, passed beside the staged operands. -/
abbrev scM2 : Memref sig .tc .vmem S1024x128 .f32 := Memref.whole cc2_scratch0

/-- The core's other scoped buffers (the other two calls' staging buffers), which this call never opens. -/
abbrev others2 (c : Dev nD) : sProp 𝕄 :=
  Pipeline.scopedRestBut (Ix := Unit) (Name := ℕ) (U := UR sig nD τ) (Lvl := ℕ) (Val := Elt F) spec2 c [cc2_scratch0]

/-- The class invariant with the accumulator named: the accumulator at some contents, the other scoped buffers,
    the generator register at some state. -/
theorem PhiA2_eq (c : Dev nD) :
    (Pipeline.ΦA spec2 c : sProp 𝕄)
      = iprop(((∃ d, owns (c : Thread nD τ) scM2 fullShare d) ∗ others2 c) ∗ (∃ r, prngReg c r)) := by
  unfold Pipeline.ΦA
  rw [Pipeline.scopedRest_split_of_list spec2 c [cc2_scratch0] (by decide) (by decide)]
  simp only [bigSepL_singleton, scM2, owns_whole]; try rfl

end Cert.KernelIdeal.Hand
end
-- ==== Proof.KernelIdeal.Aggregate.RunFFF.lean ====
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.KernelIdeal.Aggregate.Base

/-!
  The body at a point that is not the first column tile (the accumulator is carried over), off the diagonal, not the last column tile (the result tile is left as it was).
-/
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_FFF (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : ¬cond2_0 i) (hc1 : ¬cond2_1 i) (hc2 : ¬cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo
            ∗ owns (c : Thread nD τ) arg6 fullShare (k2_pay2 xs xA xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.KernelIdeal.Hand
end
-- ==== Proof.KernelIdeal.Aggregate.RunFFT.lean ====
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.KernelIdeal.Aggregate.Base

/-!
  The body at a point that is not the first column tile (the accumulator is carried over), off the diagonal, the last column tile (the accumulator, scaled row by row, is stored as the result tile).
-/
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_FFT (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : ¬cond2_0 i) (hc1 : ¬cond2_1 i) (hc2 : cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare (k2_pay4 xd (k2_pay2 xs xA xS))
            ∗ owns (c : Thread nD τ) arg6 fullShare (k2_pay2 xs xA xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_cons_unit_zero (S := S1024x128) _ _ hz2]
    simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.KernelIdeal.Hand
end
-- ==== Proof.KernelIdeal.Aggregate.RunFTF.lean ====
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.KernelIdeal.Aggregate.Base

/-!
  The body at a point that is not the first column tile (the accumulator is carried over), the column tile of the diagonal (the support tile's own rows are added after the product), not the last column tile (the result tile is left as it was).
-/
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_FTF (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : ¬cond2_0 i) (hc1 : cond2_1 i) (hc2 : ¬cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo
            ∗ owns (c : Thread nD τ) arg6 fullShare (k2_pay3 (k2_pay2 xs xA xS) xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.KernelIdeal.Hand
end
-- ==== Proof.KernelIdeal.Aggregate.RunFTT.lean ====
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.KernelIdeal.Aggregate.Base

/-!
  The body at a point that is not the first column tile (the accumulator is carried over), the column tile of the diagonal (the support tile's own rows are added after the product), the last column tile (the accumulator, scaled row by row, is stored as the result tile).
-/
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_FTT (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : ¬cond2_0 i) (hc1 : cond2_1 i) (hc2 : cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare (k2_pay4 xd (k2_pay3 (k2_pay2 xs xA xS) xS))
            ∗ owns (c : Thread nD τ) arg6 fullShare (k2_pay3 (k2_pay2 xs xA xS) xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_cons_unit_zero (S := S1024x128) _ _ hz2]
    simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.KernelIdeal.Hand
end
-- ==== Proof.KernelIdeal.Aggregate.RunTFF.lean ====
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.KernelIdeal.Aggregate.Base

/-!
  The body at a point that is the first column tile of a row tile (the accumulator is zeroed first), off the diagonal, not the last column tile (the result tile is left as it was).
-/
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_TFF (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : cond2_0 i) (hc1 : ¬cond2_1 i) (hc2 : ¬cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo
            ∗ owns (c : Thread nD τ) arg6 fullShare (k2_pay2 (k2_pay1 (F := F)) xA xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.KernelIdeal.Hand
end
-- ==== Proof.KernelIdeal.Aggregate.RunTTF.lean ====
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«155826_j5798205849837_2_alg».proof.Proof.KernelIdeal.Aggregate.Base

/-!
  The body at a point that is the first column tile of a row tile (the accumulator is zeroed first), the column tile of the diagonal (the support tile's own rows are added after the product), not the last column tile (the result tile is left as it was).
-/
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

set_option maxHeartbeats 1000000 in
/-- On whole buffers holding the adjacency tile xA, the support tile xS, the scaling tile xd, the result tile's
    buffer at xo and the accumulator at xs, the body runs and leaves the three operands as they were, the
    accumulator and the result tile's buffer at the stated contents. -/
theorem kernelRun2_TTF (c : Dev nD) (i : grid2.Coords)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (hc0 : cond2_0 i) (hc1 : cond2_1 i) (hc2 : ¬cond2_2 i)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo
            ∗ owns (c : Thread nD τ) arg6 fullShare (k2_pay3 (k2_pay2 (k2_pay1 (F := F)) xA xS) xS)) -∗ K ⟨⟩))
      ⊢ wp frame (wpE (defs₀ (F := F)) Variants.none c none) E (cc2_agg_kernel i arg2 harg2 arg3 harg3 arg4 harg4 arg5 harg5 arg6 harg6) K := by
  simp only [cc2_agg_kernel_eq_skeleton]; unfold cc2_agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1 | exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  (try sl_unfold_words)
  rw [read_writes_cons_unit_zero (S := S1024x128) _ _ hz2]
  simp only [readCov_cons_unit_zero (S := S1024x128) _ hz2, View.readAt_eq_ld, harg2.read_unread, harg3.read_unread, harg4.read_unread, harg5.read_unread, harg6.read_unread, View.ld_unit_zero (S := S1024x128) hz2, View.ld_unit_zero (S := S1024x1024) hz2, View.ld_unit_zero (S := S1024x1) hz2]

end Cert.KernelIdeal.Hand
end
-- ==== Proof.KernelIdeal.Aggregate.lean ====
import proofs.«155826_j5798205849837_2_alg».proof.Proof.Gen.KernelIdeal.Launch
import proofs.«155826_j5798205849837_2_alg».proof.Proof.Gen.KernelIdeal.Skeleton
import proofs.«155826_j5798205849837_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«155826_j5798205849837_2_alg».proof.Proof.KernelIdeal.Aggregate.RunFFF
import proofs.«155826_j5798205849837_2_alg».proof.Proof.KernelIdeal.Aggregate.RunFFT
import proofs.«155826_j5798205849837_2_alg».proof.Proof.KernelIdeal.Aggregate.RunFTF
import proofs.«155826_j5798205849837_2_alg».proof.Proof.KernelIdeal.Aggregate.RunFTT
import proofs.«155826_j5798205849837_2_alg».proof.Proof.KernelIdeal.Aggregate.RunTFF
import proofs.«155826_j5798205849837_2_alg».proof.Proof.KernelIdeal.Aggregate.RunTTF

/-!
  The aggregation call's half of the run: the proof data of its pipeline at the contents the call finds,
  and the body obligation.

  The body carries a 1024 x 128 accumulator from point to point. Within a row tile i the points j = 0..7 do:
  zero it when j = 0; add the product of the adjacency tile (i, j) with the support tile j; add the support
  tile itself when j = i; and when j = 7 scale its rows by the scaling tile i and store that as the result tile,
  which the pipeline then writes back. So what the accumulator holds after a point is a function of what it held
  before and of the two tiles (accStep), and the invariant between points is the class invariant with the
  accumulator held at the contents the last point left.
-/
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the core's buffer contents when the region is entered, arbitrary here and fixed by the run
variable (V : (c : Dev nD) → (b : Ref sig .tc) → Buf (Elt F) ((c : Thread nD τ).loc b))

/-! ## The accumulator from point to point -/

/-- The accumulator after the body at point n, from what it held before (s), the adjacency tile A and the
    support tile S: zeroed first when the column tile is the first; the product added; the support tile added
    when the column tile is the diagonal's. -/
def accStep (n : ℕ) (s : Vec F S1024x128 .f32) (A : Vec F S1024x1024 .f32) (S : Vec F S1024x128 .f32) : Vec F S1024x128 .f32 :=
  if n % 8 = n / 8 then k2_pay3 (k2_pay2 (if n % 8 = 0 then k2_pay1 else s) A S) S
  else k2_pay2 (if n % 8 = 0 then k2_pay1 else s) A S

/-- At the first column tile what the accumulator held before does not matter. -/
theorem accStep_first (n : ℕ) (h : n % 8 = 0) (s s' : Vec F S1024x128 .f32) (A : Vec F S1024x1024 .f32) (S : Vec F S1024x128 .f32) :
    accStep n s A S = accStep n s' A S := by
  unfold accStep; simp only [if_pos h]

/-- The body at a point before the last column tile: the result tile's buffer is handed back as found. -/
theorem kernelRun2_idle (c : Dev nD) (t : Fin cfg2.N) (h2 : ¬t.val % 8 = 7)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare xo ∗ owns (c : Thread nD τ) arg6 fullShare (accStep t.val xs xA xS)) -∗ K ⟨⟩))
      ⊢ wp frame (wpE (defs₀ (F := F)) Variants.none c none) E (cc2_agg_kernel (grid2.coords t) arg2 harg2 arg3 harg3 arg4 harg4 arg5 harg5 arg6 harg6) K := by
  unfold accStep
  by_cases h0 : t.val % 8 = 0
  · by_cases h1 : t.val % 8 = t.val / 8
    · simp only [if_pos h0, if_pos h1]
      exact kernelRun2_TTF c (grid2.coords t) arg2 harg2 arg3 harg3 arg4 harg4 arg5 harg5 arg6 harg6 ((hcond2_0 t).mpr h0) ((hcond2_1 t).mpr h1) (fun h => h2 ((hcond2_2 t).mp h)) xA xS xd xo xs E K
    · simp only [if_pos h0, if_neg h1]
      exact kernelRun2_TFF c (grid2.coords t) arg2 harg2 arg3 harg3 arg4 harg4 arg5 harg5 arg6 harg6 ((hcond2_0 t).mpr h0) (fun h => h1 ((hcond2_1 t).mp h)) (fun h => h2 ((hcond2_2 t).mp h)) xA xS xd xo xs E K
  · by_cases h1 : t.val % 8 = t.val / 8
    · simp only [if_neg h0, if_pos h1]
      exact kernelRun2_FTF c (grid2.coords t) arg2 harg2 arg3 harg3 arg4 harg4 arg5 harg5 arg6 harg6 (fun h => h0 ((hcond2_0 t).mp h)) ((hcond2_1 t).mpr h1) (fun h => h2 ((hcond2_2 t).mp h)) xA xS xd xo xs E K
    · simp only [if_neg h0, if_neg h1]
      exact kernelRun2_FFF c (grid2.coords t) arg2 harg2 arg3 harg3 arg4 harg4 arg5 harg5 arg6 harg6 (fun h => h0 ((hcond2_0 t).mp h)) (fun h => h1 ((hcond2_1 t).mp h)) (fun h => h2 ((hcond2_2 t).mp h)) xA xS xd xo xs E K

/-- The body at a last column tile: the result tile's buffer is left at the accumulator scaled row by row. -/
theorem kernelRun2_live (c : Dev nD) (t : Fin cfg2.N) (h2 : t.val % 8 = 7)
    (arg2 : Memref sig .tc .vmem S1024x1024 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1024x128 .f32) (harg5 : arg5.IsWhole)
    (arg6 : Memref sig .tc .vmem S1024x128 .f32) (harg6 : arg6.IsWhole)
    (xA : Vec F S1024x1024 .f32) (xS : Vec F S1024x128 .f32) (xd : Vec F S1024x1 .f32) (xo : Vec F S1024x128 .f32) (xs : Vec F S1024x128 .f32)
    (E : Set ℕ) (K : PUnit → sProp 𝕄) :
    iprop(owns (c : Thread nD τ) arg2 fullShare xA ∗ owns (c : Thread nD τ) arg3 fullShare xS ∗ owns (c : Thread nD τ) arg4 fullShare xd
        ∗ owns (c : Thread nD τ) arg5 fullShare xo ∗ owns (c : Thread nD τ) arg6 fullShare xs
        ∗ (iprop(owns (c : Thread nD τ) arg2 fullShare xA ∗ owns (c : Thread nD τ) arg3 fullShare xS ∗ owns (c : Thread nD τ) arg4 fullShare xd
            ∗ owns (c : Thread nD τ) arg5 fullShare (k2_pay4 xd (accStep t.val xs xA xS)) ∗ owns (c : Thread nD τ) arg6 fullShare (accStep t.val xs xA xS)) -∗ K ⟨⟩))
      ⊢ wp frame (wpE (defs₀ (F := F)) Variants.none c none) E (cc2_agg_kernel (grid2.coords t) arg2 harg2 arg3 harg3 arg4 harg4 arg5 harg5 arg6 harg6) K := by
  have h0 : ¬t.val % 8 = 0 := by omega
  unfold accStep
  by_cases h1 : t.val % 8 = t.val / 8
  · simp only [if_neg h0, if_pos h1]
    exact kernelRun2_FTT c (grid2.coords t) arg2 harg2 arg3 harg3 arg4 harg4 arg5 harg5 arg6 harg6 (fun h => h0 ((hcond2_0 t).mp h)) ((hcond2_1 t).mpr h1) ((hcond2_2 t).mpr h2) xA xS xd xo xs E K
  · simp only [if_neg h0, if_neg h1]
    exact kernelRun2_FFT c (grid2.coords t) arg2 harg2 arg3 harg3 arg4 harg4 arg5 harg5 arg6 harg6 (fun h => h0 ((hcond2_0 t).mp h)) (fun h => h1 ((hcond2_1 t).mp h)) ((hcond2_2 t).mpr h2) xA xS xd xo xs E K

/-! ## What the accumulator and the result tile's buffer hold after each point -/

/-- The accumulator after the body at point n, by recursion on the point. -/
def scrAt2 (c : Dev nD) : (n : ℕ) → n < cfg2.N → Vec F S1024x128 .f32
  | 0, hn => accStep 0 (k2_pay1 (F := F)) (iblk2 V c 0 ⟨0, hn⟩) (iblk2 V c 1 ⟨0, hn⟩)
  | n + 1, hn => accStep (n + 1) (scrAt2 c n (Nat.lt_of_succ_lt hn)) (iblk2 V c 0 ⟨n + 1, hn⟩) (iblk2 V c 1 ⟨n + 1, hn⟩)

/-- At the first point, whatever the accumulator held before. -/
theorem scrAt2_zero (c : Dev nD) (t : Fin cfg2.N) (hz : t.val = 0) (d : Vec F S1024x128 .f32) :
    scrAt2 V c t.val t.isLt = accStep t.val d (iblk2 V c 0 t) (iblk2 V c 1 t) := by
  obtain ⟨n, hn⟩ := t
  obtain rfl : n = 0 := hz
  exact accStep_first 0 rfl _ _ _ _

/-- After the first point: one step from what the point before left. -/
theorem scrAt2_pos (c : Dev nD) (t : Fin cfg2.N) (hz : t.val ≠ 0) :
    scrAt2 V c t.val t.isLt
      = accStep t.val (scrAt2 V c (t.val - 1) (Nat.lt_of_le_of_lt (Nat.sub_le _ _) t.isLt)) (iblk2 V c 0 t) (iblk2 V c 1 t) := by
  obtain ⟨n, hn⟩ := t
  cases n with
  | zero => exact absurd rfl hz
  | succ n => rfl

/-- The result tile's buffer and the accumulator after the body at point n. The first component is what a last
    column tile's body stores (the accumulator scaled row by row by the scaling tile); at the other points the
    buffer is not stored into and nothing reads this component. -/
def outsAt2 (c : Dev nD) (n : ℕ) (hn : n < cfg2.N) : Vec F S1024x128 .f32 × Vec F S1024x128 .f32 :=
  (k2_pay4 (iblk2 V c 2 ⟨n, hn⟩) (scrAt2 V c n hn), scrAt2 V c n hn)

/-! ## The invariant between points -/

/-- Before the first point the class invariant (the accumulator at anything); afterwards the same with the
    accumulator at what the point before left. -/
def PhiS2 (c : Dev nD) : (n : ℕ) → n ≤ cfg2.N → sProp 𝕄
  | 0, _ => Pipeline.ΦA spec2 c
  | n + 1, hn => iprop((owns (c : Thread nD τ) scM2 fullShare (scrAt2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (scrAt2 V c n hn) ∗ others2 c) ∗ (∃ r, prngReg c r)) := rfl

theorem PhiS2_pos (c : Dev nD) (n : ℕ) (h : n ≤ cfg2.N) (hz : n ≠ 0) :
    PhiS2 V c n h = iprop((owns (c : Thread nD τ) scM2 fullShare (scrAt2 V c (n - 1) (by omega)) ∗ others2 c) ∗ (∃ r, prngReg c r)) := by
  cases n with
  | zero => exact absurd rfl hz
  | succ n => rfl

/-! ## The pipeline's proof data -/

/-- The arrays as the call finds them; after the body at a point each operand's buffer at its block and the result
    tile's at outsAt2's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4000000 in
/-- The body at any point. The three operands' buffers hold their blocks. The invariant hands over the accumulator
    (at anything at the first point, else at what the point before left) and takes it back at this point's
    contents. Before the last column tile the result tile's buffer goes back as found; at the last it holds the
    scaled accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 64 := lt_of_lt_of_eq t.isLt (show cfg2.N = 64 from N_2)
  by_cases h2 : t.val % 8 = 7
  · have hz : t.val ≠ 0 := by omega
    rw [show (dat2 V c).leavesExact 3 t = owns (c : Thread nD τ) (ms2_3 t) fullShare ((dat2 V c).after 3 t) from by
      unfold Dat.leavesExact; rw [liveAt2_3 t ((hcond2_2 t).mpr h2)], after2_3]
    unfold outsAt2; dsimp only
    rw [scrAt2_pos V c t hz, PhiS2_castSucc V c t, PhiS2_pos V c _ _ hz]
    iintro ⟨⟨⟨HS, Hr⟩, Hg⟩, Ho, ⟨%d0, H0⟩, ⟨%d1, H1⟩, ⟨%d2, H2⟩, ⟨%d3, H3⟩⟩
    iapply (kernelRun2_live c t h2 _ _ _ _ _ _ _ _ _ _ (iblk2 V c 0 t) (iblk2 V c 1 t) (iblk2 V c 2 t) _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [Dat.leavesExact_idle (dat2 V c) 3 t (idleAt2_3 t (fun h => h2 ((hcond2_2 t).mp h))) (noFlush2_3 t (fun h => h2 ((hcond2_2 t).mp h)))]
    by_cases hz : t.val = 0
    · rw [PhiS2_castSucc V c t, PhiS2_zero V c _ _ hz, PhiA2_eq]
      iintro ⟨⟨⟨⟨%ds, HS⟩, Hr⟩, Hg⟩, Ho, ⟨%d0, H0⟩, ⟨%d1, H1⟩, ⟨%d2, H2⟩, ⟨%d3, H3⟩⟩
      rw [scrAt2_zero V c t hz ds]
      iapply (kernelRun2_idle c t h2 _ _ _ _ _ _ _ _ _ _ (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [scrAt2_pos V c t hz, PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (kernelRun2_idle c t h2 _ _ _ _ _ _ _ _ _ _ (iblk2 V c 0 t) (iblk2 V c 1 t) (iblk2 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class invariant back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hr⟩, Hg⟩
  isplitl [HS Hr]
  · isplitl [HS]
    · iexists _; iexact HS
    iexact Hr
  iexact Hg

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand
end
-- ==== Proof.KernelIdeal.Run.lean ====
/-
  The run of @main: three kernel regions with one stretch of two host operations (the weight transposed,
  the bias laid out as a row) between the first and the second.

  The buffer contents at every boundary are a fold from the launch memory: a region leaves its arrays at
  what its write-backs leave (the inputs as entered, each output block by block) and every other buffer as
  it found it; the host stretch leaves what its operations compute. Each region is entered with every
  unscoped buffer held whole at the boundary's contents, beside the generator register and the core owing
  nothing; its arrays are split out, handed to the pipeline, and put back at the exit contents. The third
  region's invariant also holds the accumulator the kernel keeps between grid points: it is taken out of
  the scoped buffers at the first point and given back after the last.

  From the last boundary every unscoped buffer is read against the final memory: the four arguments walk
  back through the fold to the launch contents, and the result buffer holds the third region's output array.
-/
import proofs.«155826_j5798205849837_2_alg».proof.Proof.KernelIdeal.RowSums
import proofs.«155826_j5798205849837_2_alg».proof.Proof.KernelIdeal.Support
import proofs.«155826_j5798205849837_2_alg».proof.Proof.KernelIdeal.Aggregate
import proofs.«155826_j5798205849837_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the row-sum region: the column of reciprocal roots written block by block, all else as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host operations. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the support region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the aggregation region: the end. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched

No host operation writes an argument; a region only reads one through an input window, whose array the
pipeline leaves as entered. -/

theorem W2_of (c : Dev nD) (r : Ref sig .tc) (h : r ∉ hostOps1_W) : W2 m ρ c r = W1 m ρ c r :=
  StableHlo.after_of_writes_sub hostOps1 _ hostOps1_writes h

/-- The features: an input window of the support region only. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of m ρ c main_arg0 (by decide)
    _ = W0 m ρ c (Proc.devRef .tc main_arg0) := W1_of_ne m ρ c main_arg0 (by decide)
    _ = m ((c : Thread nD τ).loc main_arg0) := rfl

/-- The adjacency: an input window of the row-sum region and of the aggregation region. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- The weight: read by the host transpose only. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := W1_of_ne m ρ c main_arg2 (by decide)
    _ = m ((c : Thread nD τ).loc main_arg2) := rfl

/-- The bias: read by the host reshape only. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl

/-! ## The proof data family and the thread state -/

abbrev adm : (p : Fin 3) → (pcfgs (F := F) p).Adm := fun p => (cfgs p).toPCfg_adm

/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers through every segment: the generator register at some state, the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The row-sum region: entered at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The support region: entered at `W2` (after the host stretch), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation region: entered at `W3`, left at `W4`; its invariant takes the accumulator out of the
    scoped buffers at the first point and gives it back after the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m ρ 2 c).Φ 0 from hin2 (V3 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]

theorem main_run (c : Dev nD) : main (F := F) c = Pipeline.Seg.run (segs m ρ) := (main_chain c).trans (by chain_rfl)

set_option backward.isDefEq.respectTransparency.types false in
/-- The run: from any memory with zero counters every weakly fair execution of @main terminates, nothing
    faulting, and in every final memory each unscoped buffer of core `c` holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

/-- The result buffer at the end holds the aggregation region's output array. -/
theorem result_eq (c : Dev nD) : W4 m ρ c (Proc.devRef .tc main_v0) = (dat2 (V3 m ρ) c).arrAt 3 cfg2.N :=
  W4_arr m ρ c 3

end Cert.KernelIdeal.Hand
end
-- ==== Proof.KernelIdeal.Chain.lean ====
/-
  What each region finds in its input arrays, read back through the fold of boundary contents:
  the adjacency and the features are the launch contents at every boundary; the column of reciprocal
  roots is the first region's output array at every later boundary; the transposed weight and the bias
  row are what the two host operations compute from the launch contents; the scaled support is the
  second region's output array.
-/
import proofs.«155826_j5798205849837_2_alg».proof.Proof.KernelIdeal.Run
import Idealize.ShloMosaic.Lib.StableHlo.Run
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat)
variable {F : FTy → Type} [FloatOps F]
variable (m : (ℓ : Loc nD τ sig) → Buf (Elt F) ℓ) (ρ : Dev nD → PrngReg)

/-! ## Before the support region -/

/-- The column of reciprocal roots after the first region and after the host stretch. -/
theorem W1_dinv (c : Dev nD) : W1 m ρ c (Proc.devRef .tc main_call0_v0) = (dat0 (V0 m ρ) c).arrAt 1 cfg0.N :=
  W1_arr m ρ c 1
theorem W2_dinv (c : Dev nD) : W2 m ρ c (Proc.devRef .tc main_call0_v0) = (dat0 (V0 m ρ) c).arrAt 1 cfg0.N :=
  (W2_of m ρ c main_call0_v0 (by decide)).trans (W1_dinv m ρ c)

/-- The features when the support region is entered. -/
theorem W2_x (c : Dev nD) : W2 m ρ c (Proc.devRef .tc main_arg0) = m ((c : Thread nD τ).loc main_arg0) :=
  (W2_of m ρ c main_arg0 (by decide)).trans ((W1_of_ne m ρ c main_arg0 (by decide)).trans rfl)

theorem W1_weight (c : Dev nD) : W1 m ρ c (Proc.devRef .tc main_arg2) = m ((c : Thread nD τ).loc main_arg2) :=
  (W1_of_ne m ρ c main_arg2 (by decide)).trans rfl
theorem W1_bias (c : Dev nD) : W1 m ρ c (Proc.devRef .tc main_arg3) = m ((c : Thread nD τ).loc main_arg3) :=
  (W1_of_ne m ρ c main_arg3 (by decide)).trans rfl

/-- The weight transposed by the host. -/
theorem W2_wt (c : Dev nD) :
    (W2 m ρ c (Proc.devRef .tc main_call0_v1) : S128x128.Idx → Elt F .f32)
      = transpose S128x128 [1, 0] (m ((c : Thread nD τ).loc main_arg2) : S128x128.Idx → Elt F .f32) transposes_S128x128_S128x128_1_0 := by
  rw [← W1_weight m ρ c]
  show StableHlo.after hostOps1 _ (Proc.devRef .tc main_call0_v1) = _
  after_results
  rfl

/-- The bias laid out as a row by the host. -/
theorem W2_b2 (c : Dev nD) :
    (W2 m ρ c (Proc.devRef .tc main_call0_v2) : S1x128.Idx → Elt F .f32)
      = shapeCast S1x128 (m ((c : Thread nD τ).loc main_arg3) : S128.Idx → Elt F .f32) shapeCasts_S128_S1x128 := by
  rw [← W1_bias m ρ c]
  show StableHlo.after hostOps1 _ (Proc.devRef .tc main_call0_v2) = _
  after_results
  rfl

/-! ## Before the aggregation region -/

/-- The scaled support: the support region's output array. -/
theorem W3_sup (c : Dev nD) : W3 m ρ c (Proc.devRef .tc main_call0_v3) = (dat1 (V2 m ρ) c).arrAt 4 cfg1.N :=
  W3_arr m ρ c 4

/-- The column of reciprocal roots: an input of the support region, left as entered. -/
theorem W3_dinv (c : Dev nD) : W3 m ρ c (Proc.devRef .tc main_call0_v0) = (dat0 (V0 m ρ) c).arrAt 1 cfg0.N :=
  ((W3_arr m ρ c 3).trans (((dat1 (V2 m ρ) c).arrAt_in 3 rfl _).trans (A_eq1 (V2 m ρ) c 3))).trans (W2_dinv m ρ c)

/-- The adjacency when the aggregation region is entered. -/
theorem W3_adj (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

end Cert.KernelIdeal.Hand
end
-- ==== Proof.Spec.lean ====
/-
  Both programs as formulas on the extended reals, over the four argument arrays
  x : 8192 x 128, A : 8192 x 8192, W : 128 x 128 (stored by output rows), b : 128.

  The layer is  D^(-1/2) (A + I) D^(-1/2) (x Wᵀ + b)  with  D = diag (rowsum (A + I)).
  One side forms the normalised matrix entry by entry and multiplies it with the support;
  the other scales the support's rows by D^(-1/2) first, accumulates A times the scaled support
  over eight column tiles of 1024, adds the scaled support's own row once (the identity's share),
  and scales the row by D^(-1/2) at the end.
-/
import Idealize.ShloMosaic.PureOps.Ideal
import Idealize.ShloMosaic.Lib.ValueIdx

noncomputable section

namespace Cert.Gcn

open Idealize.ShloMosaic Idealize.ShloMosaic.ValueIdx

abbrev SX : Shape := ⟨2, ![8192, 128]⟩
abbrev SA : Shape := ⟨2, ![8192, 8192]⟩
abbrev SW : Shape := ⟨2, ![128, 128]⟩
abbrev SB : Shape := ⟨1, ![128]⟩
abbrev SD : Shape := ⟨2, ![8192, 1]⟩

/-! ## The accumulation over column tiles, for any matrix A, any 8192 x 128 array S and any column d -/

/-- Column c of tile J as a column of A. -/
def col (J : Fin 8) (c : Fin 1024) : Fin 8192 := ⟨J.val * 1024 + c.val, by omega⟩

/-- Tile J's product onto a zero accumulator, at row n, feature f. -/
def tileProd (A : SA.Idx → EReal) (S : SX.Idx → EReal) (J : Fin 8) (n : Fin 8192) (f : Fin 128) : EReal :=
  0 + ∑ c : Fin 1024, A (ix2 n (col J c)) * S (ix2 (col J c) f)

/-- The accumulator of row n after the first J column tiles: it starts at zero, takes each tile's
    product, and takes S's own row n right after the tile that holds the diagonal entry of row n. -/
def acc (A : SA.Idx → EReal) (S : SX.Idx → EReal) (n : Fin 8192) (f : Fin 128) : (J : ℕ) → J ≤ 8 → EReal
  | 0, _ => 0
  | J + 1, h =>
    let a := acc A S n f J (by omega) + tileProd A S ⟨J, by omega⟩ n f
    if J = n.val / 1024 then a + S (ix2 n f) else a

/-- The aggregation: the accumulator after all eight tiles, the row scaled by the column d. -/
def agg (A : SA.Idx → EReal) (S : SX.Idx → EReal) (d : SD.Idx → EReal) : SX.Idx → EReal :=
  fun i => d (ix2 (i 0) (0 : Fin 1)) * acc A S (i 0) (i 1) 8 le_rfl

variable (x : SX.Idx → EReal) (A : SA.Idx → EReal) (W : SW.Idx → EReal) (b : SB.Idx → EReal)

/-- The support  x Wᵀ + b  at row n, feature f (a product onto a zero accumulator, then the bias). -/
def support (n : Fin 8192) (f : Fin 128) : EReal :=
  (0 + ∑ k : Fin 128, x (ix2 n k) * W (ix2 f k)) + b (ix1 f)

/-! ## The side that scales rows first -/

/-- D^(-1/2) at row n as  rsqrt (rowsum A + 1) : the identity's diagonal counted as the literal 1. -/
def dinvK (n : Fin 8192) : EReal :=
  Ideal.rsqrt ((0 + ∑ j : Fin 8192, A (ix2 n j)) + 1)

/-- D^(-1/2) as an 8192 x 1 column. -/
def dinvCol : SD.Idx → EReal := fun i => dinvK A (i 0)

/-- The row-scaled support. -/
def scaled (n : Fin 8192) (f : Fin 128) : EReal := dinvK A n * support x W b n f

/-- The row-scaled support as an array. -/
def scaledArr : SX.Idx → EReal := fun i => scaled x A W b (i 0) (i 1)

/-- The result of the side that scales rows first. -/
def outK (n : Fin 8192) (f : Fin 128) : EReal :=
  dinvK A n * acc A (scaledArr x A W b) n f 8 le_rfl

theorem agg_eq_outK (i : SX.Idx) :
    agg A (scaledArr x A W b) (dinvCol A) i = outK x A W b (i 0) (i 1) := rfl

/-! ## The side that normalises the matrix -/

/-- The identity matrix as a compared pair of counters turned into a number. -/
def eye (n j : Fin 8192) : EReal := if n = j then 1 else 0

/-- A + I. -/
def ahat (n j : Fin 8192) : EReal := A (ix2 n j) + eye n j

/-- D^(-1/2) at row n as  (rowsum (A + I)) ^ (-1/2) ; the exponent is the word of -0.5. -/
def dinvR (n : Fin 8192) : EReal :=
  Ideal.pow (0 + ∑ j : Fin 8192, ahat A n j) (Ideal.ofBits .f32 0xBF000000#32)

/-- The normalised matrix. -/
def anorm (n j : Fin 8192) : EReal := dinvR A n * ahat A n j * dinvR A j

/-- The result of the side that normalises the matrix. -/
def outR (n : Fin 8192) (f : Fin 128) : EReal :=
  0 + ∑ j : Fin 8192, anorm A n j * support x W b j f

/-- What the law between the two sides needs of the arguments: every entry a real number, and every
    row sum of A + I positive (where the power  s ^ (-1/2)  is the reciprocal root). -/
structure Dom : Prop where
  x_real : ∀ i, ∃ r : ℝ, x i = (r : EReal)
  A_real : ∀ i, ∃ r : ℝ, A i = (r : EReal)
  W_real : ∀ i, ∃ r : ℝ, W i = (r : EReal)
  b_real : ∀ i, ∃ r : ℝ, b i = (r : EReal)
  pos : ∀ n : Fin 8192, 0 < 0 + ∑ j : Fin 8192, ahat A n j

end Cert.Gcn

end
-- ==== Proof.KernelIdeal.Parts.lean ====
/-
  The support region's formula over its own four input arrays — the column of reciprocal roots, the
  features, the weight as the host transposed it and the bias as the host laid it out in a row — is the
  row-scaled support of the four arguments: the transposed weight at (k, f) is the weight at (f, k), and
  the bias row at (0, f) is the bias at f.
-/
import proofs.«155826_j5798205849837_2_alg».proof.Proof.Gen.KernelIdeal
import proofs.«155826_j5798205849837_2_alg».proof.Proof.Spec
import Idealize.ShloMosaic.Lib.Pipeline.Value
import Idealize.ShloMosaic.Lib.ValueIdx
import Idealize.ShloMosaic.Lib.ValueLayout
noncomputable section
open scoped BigOperators
namespace Cert.KernelIdeal.Hand
open Cert.KernelIdeal Cert.KernelIdeal.Gen
open Idealize.ShloMosaic Idealize.ShloMosaic.ValueIdx

/-- The bias laid out as a 1 x 128 row reads, at (0, f), the bias at f. -/
theorem biasRow_apply (b : S128.Idx → EReal) (f : Fin 128) :
    shapeCast S1x128 b shapeCasts_S128_S1x128 (ix2 (0 : Fin 1) f) = b (ix1 f) := by
  refine (shapeCast_apply b shapeCasts_S128_S1x128 (ix2 (0 : Fin 1) f) (ix1 f) ?_)
  rw [Shape.rowMajor_val_one, Shape.rowMajor_val_two]
  show f.val = (0 : Fin 1).val * 128 + f.val
  simp

/-- The support region's formula is the row-scaled support. -/
theorem scaled_of_parts (x : S8192x128.Idx → EReal) (A : S8192x8192.Idx → EReal) (W : S128x128.Idx → EReal)
    (b : S128.Idx → EReal) :
    (fun i : S8192x128.Idx => Cert.Gcn.dinvCol A (ix2 (i 0) (0 : Fin 1))
        * ((0 + ∑ k : Fin 128, x (ix2 (i 0) k)
              * transpose S128x128 [1, 0] W transposes_S128x128_S128x128_1_0 (ix2 k (i 1)))
            + shapeCast S1x128 b shapeCasts_S128_S1x128 (ix2 (0 : Fin 1) (i 1))))
      = Cert.Gcn.scaledArr x A W b := by
  funext i
  obtain ⟨n, f, rfl⟩ : ∃ (n : Fin 8192) (f : Fin 128), i = ix2 n f := ⟨i 0, i 1, eq_ix2 i⟩
  show Cert.Gcn.dinvK A n
      * ((0 + ∑ k : Fin 128, x (ix2 n k) * transpose S128x128 [1, 0] W transposes_S128x128_S128x128_1_0 (ix2 k f))
          + shapeCast S1x128 b shapeCasts_S128_S1x128 (ix2 (0 : Fin 1) f))
    = Cert.Gcn.dinvK A n * ((0 + ∑ k : Fin 128, x (ix2 n k) * W (ix2 f k)) + b (ix1 f))
  rw [biasRow_apply b f]
  congr 3
  refine Finset.sum_congr rfl fun k _ => ?_
  rw [transpose_ix2_apply W transposes_S128x128_S128x128_1_0 k f]

end Cert.KernelIdeal.Hand
end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibLeast.lean ====
/-
  General facts about reductions of an `M × N` array read at an index, at the ideal values.

  * Summing along the lanes gives, at row `p`, the sum of the row's `N` entries (`rowSum_apply`).
  * Taking the minimum along the lanes gives, at row `p`, the least of the row's entries and the starting value
    (`rowMin_apply`); along the rows, at column `q`, the least of the column's entries and the starting value
    (`colMin_apply`). The least value is the fold of `min` from the starting value over the axis's coordinates.
-/
import Idealize.ShloMosaic.Lib.ValueIdx
import Idealize.ShloMosaic.PureOps.Ideal.Laws

noncomputable section

open scoped BigOperators

namespace Cert.Lib.Least

open Idealize.ShloMosaic Idealize.ShloMosaic.ValueIdx

variable {M N : Nat}

/-- The row index `p` with lane `k` put back is `(p, k)`. -/
theorem lift_lane (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The sum along the lanes, at row `p`. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ)
    (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_lane h p k)

/-- The minimum along the lanes, at row `p`: the least of the row's entries and the starting value. -/
theorem rowMin_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.minimumf.neutral φ hφ)
    (p : Fin M) :
    multiReduction .minimumf [1] ⟨1, ![M]⟩ src acc h hφ hacc (ix1 p)
      = (Finset.univ : Finset (Fin N)).fold min (Ideal.ofBits φ acc) fun k => src (ix2 p k) := by
  rw [multiReduction_minimumf_eq_fold]
  refine (h.fold_filter_drop_single _ _ src (ix1 p)).trans ?_
  have hf : (src ∘ h.lift (ix1 p)) = fun k : Fin N => src (ix2 p k) := funext fun (k : Fin N) => congrArg src (lift_lane h p k)
  exact congrArg (fun f => Finset.fold min (Ideal.ofBits φ acc) f (Finset.univ : Finset (Fin N))) hf

/-- The minimum along the rows, at column `q`: the least of the column's entries and the starting value. -/
theorem colMin_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.minimumf.neutral φ hφ)
    (q : Fin N) :
    multiReduction .minimumf [0] ⟨1, ![N]⟩ src acc h hφ hacc (ix1 q)
      = (Finset.univ : Finset (Fin M)).fold min (Ideal.ofBits φ acc) fun k => src (ix2 k q) := by
  rw [multiReduction_minimumf_eq_fold]
  refine (h.fold_filter_drop_single _ _ src (ix1 q)).trans ?_
  have hf : (src ∘ h.lift (ix1 q)) = fun k : Fin M => src (ix2 k q) := funext fun (k : Fin M) => congrArg src (lift_row h q k)
  exact congrArg (fun f => Finset.fold min (Ideal.ofBits φ acc) f (Finset.univ : Finset (Fin M))) hf

/-! ## The same at f32, with the accumulator's word written out

A printed reduction carries its accumulator as a literal word and a proof that the word equals itself; these forms take
the proof with that type, so that they apply to a printed term as it stands. -/

/-- The sum along the lanes of an f32 array, from the zero word. -/
theorem rowSum_f32 (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) :=
  rowSum_apply src _ h hφ hacc p

/-- The sum down the rows of an `M × 1` f32 column, from the zero word. -/
theorem colSum_f32 (src : FVec Ideal ⟨2, ![M, 1]⟩ .f32) (h : (⟨2, ![M, 1]⟩ : Shape).Reduces [0] ⟨1, ![1]⟩)
    (hφ : FKind.Formats .f32) (hacc : (0x00000000#32 : BitVec 32) = 0x00000000#32) :
    multiReduction .add [0] ⟨1, ![1]⟩ src 0x00000000#32 h hφ hacc (ix1 (0 : Fin 1)) = ∑ k : Fin M, src (ix2 k (0 : Fin 1)) := by
  refine (Ideal.multiReduction_add_single src _ h hφ hacc (ix1 (0 : Fin 1))).trans ?_
  exact Finset.sum_congr rfl fun k _ => congrArg src (lift_row h (0 : Fin 1) k)

/-- The minimum along the lanes of an f32 array, from the word of +∞. -/
theorem rowMin_f32 (src : FVec Ideal ⟨2, ![M, N]⟩ .f32) (h : (⟨2, ![M, N]⟩ : Shape).Reduces [1] ⟨1, ![M]⟩)
    (hφ : FKind.Formats .f32) (hacc : (0x7F800000#32 : BitVec 32) = 0x7F800000#32) (p : Fin M) :
    multiReduction .minimumf [1] ⟨1, ![M]⟩ src 0x7F800000#32 h hφ hacc (ix1 p)
      = (Finset.univ : Finset (Fin N)).fold min (Ideal.ofBits .f32 0x7F800000#32) fun k => src (ix2 p k) :=
  rowMin_apply src _ h hφ hacc p

/-- The minimum down the rows of an f32 array, from the word of +∞. -/
theorem colMin_f32 (src : FVec Ideal ⟨2, ![M, N]⟩ .f32) (h : (⟨2, ![M, N]⟩ : Shape).Reduces [0] ⟨1, ![N]⟩)
    (hφ : FKind.Formats .f32) (hacc : (0x7F800000#32 : BitVec 32) = 0x7F800000#32) (q : Fin N) :
    multiReduction .minimumf [0] ⟨1, ![N]⟩ src 0x7F800000#32 h hφ hacc (ix1 q)
      = (Finset.univ : Finset (Fin M)).fold min (Ideal.ofBits .f32 0x7F800000#32) fun k => src (ix2 k q) :=
  colMin_apply src _ h hφ hacc q

end Cert.Lib.Least

end
-- ==== Proof.KernelIdeal.RowSumsValue.lean ====
/-
  The degree column at the ideal values.

  Each of the sixteen grid points writes a 512 x 1 piece of the degree column, computed from the 512 x 8192 band
  of the adjacency matrix it was handed.  Here the piece is read entry by entry — row p of the piece is the
  reciprocal square root of (the sum of row p of the band, plus one) —, the band is recognised as rows
  512 t … 512 t + 511 of the adjacency matrix, and the sixteen pieces are seen to tile the column.  Hence the
  column after the last point is, at row n, the reciprocal square root of (the sum of row n of the matrix, plus one).
-/
import proofs.«155826_j5798205849837_2_alg».proof.Proof.KernelIdeal.RowSums
import proofs.«155826_j5798205849837_2_alg».proof.Proof.Spec
import proofs.«155826_j5798205849837_2_alg».proof.Proof.LibColumn
import proofs.«155826_j5798205849837_2_alg».proof.Proof.LibLeast
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
set_option maxRecDepth 16384
noncomputable section
open scoped BigOperators
namespace Cert.KernelIdeal.Hand
open Cert.KernelIdeal Cert.KernelIdeal.Gen
open Idealize.ShloMosaic Idealize.ShloMosaic.TcCoe Idealize.ShloMosaic.ValueIdx Idealize.SL.Sem
open Idealize.ShloMosaic.Pipeline (Dat)

/-- Both coordinates of the offset of a whole-buffer rectangle are zero. -/
theorem hz0 : (![0, 0] : Fin 2 → Nat) = fun _ => 0 := funext fun a => by fin_cases a <;> rfl

/-! ## The body's result at an entry -/

/-- Row `p` of the piece computed from a band `x0`: the reciprocal square root of the row's sum plus one.
    The sum is taken along the lanes, the vector of sums is set up as a column, and the word added is the
    float one. -/
theorem rowsum_pay_apply (x0 : Vec Ideal S512x8192 .f32) (p : Fin 512) :
    k0_pay1 x0 (ix2 p (0 : Fin 1)) = Ideal.rsqrt ((0 + ∑ j : Fin 8192, x0 (ix2 p j)) + 1) := by
  unfold k0_pay1
  dsimp only
  show Ideal.rsqrt (_ + _) = _
  refine congrArg Ideal.rsqrt ?_
  refine congrArg₂ (· + ·) ?_ ?_
  · refine (Cert.Lib.Column.col_apply _ _ p).trans ?_
    refine (Cert.Lib.Least.rowSum_apply x0 _ _ _ _ p).trans ?_
    exact (zero_add _).symm
  · show Ideal.ofBits .f32 0x3F800000#32 = 1
    exact Ideal.ofBits_one_f32

/-! ## Where the windows sit at a grid point -/

/-- At point `t` both windows are at block row `t` and block column 0. -/
theorem rowsum_index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- The adjacency matrix as the region finds it. -/
abbrev adj0 (c : Dev nD) : S8192x8192.Idx → EReal := V c (Pipeline.arrRef spec0 0)

/-- The band of point `t` is rows `512 t … 512 t + 511` of the adjacency matrix. -/
theorem band_apply (c : Dev nD) (t : Fin cfg0.N) (p : Fin 512) (k : Fin 8192) (n : Fin 8192)
    (hn : n.val = 512 * t.val + p.val) :
    (iblk0 V c 0 t : Vec Ideal S512x8192 .f32) (ix2 p k) = adj0 V c (ix2 n k) := by
  obtain ⟨e0, e1, -, -⟩ := rowsum_index_facts t
  unfold iblk0
  rw [View.read_apply]
  show V c main_arg1 _ = V c main_arg1 _
  congr 1
  funext a
  apply Fin.ext
  match a with
  | ⟨0, _⟩ => show win0_0.index t 0 * 512 + 1 * p.val = n.val; rw [e0, hn]; omega
  | ⟨1, _⟩ => show win0_0.index t 1 * 8192 + 1 * k.val = k.val; rw [e1]; omega

/-! ## The column as one function of the adjacency matrix -/

/-- The degree column: at row `n`, the reciprocal square root of (row `n`'s sum plus one). -/
abbrev degCol (c : Dev nD) : S8192x1.Idx → EReal := fun i => Cert.Gcn.dinvK (adj0 V c) (i 0)

/-- What point `t` sends back is piece `t` of that column. -/
theorem flushed0_eq (c : Dev nD) (t : Fin cfg0.N) :
    (dat0 (F := Ideal) V c).flushed 1 t = ((cfg0.win 1).blk t).view.read (Elt Ideal) (degCol V c) := by
  show (cfg0.win 1).cut (grid0.coords t) ((dat0 V c).after 1 t) = _
  rw [after0_1]
  unfold out0_1
  rw [View.canon_unit_zero hz0]
  simp only [View.ld_unit_zero (S := S512x8192) hz0]
  obtain ⟨-, -, e2, e3⟩ := rowsum_index_facts t
  funext j
  obtain ⟨p, q, rfl⟩ : ∃ (p : Fin 512) (q : Fin 1), j = ix2 p q := ⟨j 0, j 1, eq_ix2 j⟩
  obtain rfl : q = 0 := Subsingleton.elim _ _
  refine (rowsum_pay_apply (iblk0 V c 0 t) p).trans ?_
  have hn : ((((cfg0.win 1).blk t).view.emb (ix2 p (0 : Fin 1))) 0).val = 512 * t.val + p.val := by
    show win0_1.index t 0 * 512 + 1 * p.val = _
    rw [e2]; omega
  rw [View.read_apply]
  show _ = Ideal.rsqrt ((0 + ∑ k : Fin 8192, adj0 V c (ix2 _ k)) + 1)
  refine congrArg Ideal.rsqrt (congrArg (· + 1) (congrArg (0 + ·) (Finset.sum_congr rfl fun k _ => ?_)))
  exact band_apply V c t p k _ hn

/-! ## The sixteen pieces tile the column -/

/-- An entry of the column lies in the piece of point `t` exactly when each of its coordinates lies in the
    piece's range on that axis. -/
theorem mem_piece0 (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_call0_v0).slice (win0_1.rect t)).set ↔ _
  rw [View.set_slice_whole, Rect.mem_set_unit]
  exact Iff.rfl

/-- Row `r` of the column is written by point `r / 512` (and every point writes back). -/
theorem cover0 (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, e2, e3⟩ := rowsum_index_facts t
  refine ⟨t, flush0_1 t, ?_⟩
  rw [mem_piece0]
  intro a
  match a with
  | ⟨0, _⟩ =>
    show win0_1.index t 0 * 512 ≤ (i 0).val ∧ (i 0).val < win0_1.index t 0 * 512 + 512
    rw [e2, ht]; omega
  | ⟨1, _⟩ =>
    show win0_1.index t 1 * 1 ≤ (i 1).val ∧ (i 1).val < win0_1.index t 1 * 1 + 1
    rw [e3]; omega

/-! ## The column after the last point -/

/-- After the sixteen points the degree column holds, at row `n`, the reciprocal square root of
    (the sum of row `n` of the adjacency matrix, plus one). -/
theorem final0 (c : Dev nD) :
    (dat0 (F := Ideal) V c).arrAt 1 cfg0.N = fun i => Cert.Gcn.dinvK (V c (Pipeline.arrRef spec0 0)) (i 0) :=
  (dat0 V c).arrAt_eq_of_cover 1 (degCol V c) (fun t _ => flushed0_eq V c t) cover0

end Cert.KernelIdeal.Hand
end
-- ==== Proof.KernelIdeal.SupportValue.lean ====
/-
  The row-scaled support at the ideal values.

  Each of the eight grid points writes a 1024 x 128 piece of the scaled support, computed from a 1024 x 128
  band of the features, the whole transposed weight, the bias row and the matching 1024 x 1 piece of the degree
  column.  Here the piece is read entry by entry — entry (p, q) is the degree entry of row p times
  (the inner product of row p of the band with column q of the weight, plus the bias at q) —, each of the four
  pieces handed to the body is recognised as a part of its array, and the eight result pieces are seen to tile
  the result.  Hence the result after the last point is that formula of the four arrays at every entry.
-/
import proofs.«155826_j5798205849837_2_alg».proof.Proof.KernelIdeal.Support
import proofs.«155826_j5798205849837_2_alg».proof.Proof.Spec
import proofs.«155826_j5798205849837_2_alg».proof.Proof.LibColumn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
set_option maxRecDepth 16384
noncomputable section
open scoped BigOperators
namespace Cert.KernelIdeal.Hand
open Cert.KernelIdeal Cert.KernelIdeal.Gen
open Idealize.ShloMosaic Idealize.ShloMosaic.TcCoe Idealize.ShloMosaic.ValueIdx Idealize.SL.Sem
open Idealize.ShloMosaic.Pipeline (Dat)

local notation "dotXW" => dot_S1024x128_S128x128_S1024x128_1_0_0_1_n_n

theorem dotXW_lhs0 (i : S1024x128.Idx) (c : (dotXW).contr.Idx) : ((dotXW).lhsIdx i c 0).val = (i 0).val := by
  unfold DotDims.lhsIdx
  rw [dif_neg (show ¬(0 : Fin S1024x128.rank) ∈ (dotXW).lhsBatch by decide), dif_pos (show (0 : Fin S1024x128.rank) ∈ (dotXW).lhsNonContracting by decide)]
  rfl

theorem dotXW_rhs1 (i : S1024x128.Idx) (c : (dotXW).contr.Idx) : ((dotXW).rhsIdx i c 1).val = (i 1).val := by
  unfold DotDims.rhsIdx
  rw [dif_neg (show ¬(1 : Fin S128x128.rank) ∈ (dotXW).rhsBatch by decide), dif_pos (show (1 : Fin S128x128.rank) ∈ (dotXW).rhsNonContracting by decide)]
  rfl

theorem support_dot_apply {φ₁ φ₂ : FTy} (l : FVec Ideal S1024x128 φ₁) (r : FVec Ideal S128x128 φ₂) (p : Fin 1024) (q : Fin 128) :
    FloatOps.matmul dotXW none l r (constant (F := Ideal) S1024x128 .f32 0x00000000#32) (ix2 p q)
      = ∑ k : Fin 128, l (ix2 p k) * r (ix2 k q) := by
  rw [Ideal.matmul_constant_zero_apply, ← Equiv.sum_comp (contrEquiv1 dotXW 128 rfl rfl).symm]
  refine Finset.sum_congr rfl fun k _ => ?_
  have hk := contrEquiv1_symm_val dotXW 128 rfl rfl k
  have el : (dotXW).lhsIdx (ix2 p q) ((contrEquiv1 dotXW 128 rfl rfl).symm k) = ix2 p k := funext fun a => Fin.ext (by
    match a with
    | ⟨0, _⟩ => exact dotXW_lhs0 _ _
    | ⟨1, _⟩ => exact ((dotXW).lhsIdx_val_of_single rfl _ _).trans hk)
  have er : (dotXW).rhsIdx (ix2 p q) ((contrEquiv1 dotXW 128 rfl rfl).symm k) = ix2 k q := funext fun a => Fin.ext (by
    match a with
    | ⟨0, _⟩ => exact ((dotXW).rhsIdx_val_of_single rfl _ _).trans hk
    | ⟨1, _⟩ => exact dotXW_rhs1 _ _)
  rw [el, er]

/-- Both coordinates of the offset of a whole-buffer rectangle are zero. -/
theorem hz1 : (![0, 0] : Fin 2 → Nat) = fun _ => 0 := funext fun a => by fin_cases a <;> rfl

/-! ## The body's result at an entry -/

/-- Entry `(p, q)` of the piece computed from a band `x0`, the weight `x1`, the bias row `x2` and the degree
    piece `x3`.  The narrowing of the product's operands changes nothing at the ideal values, the product
    starts from zero, the bias row is repeated down the rows and the degree piece along the lanes. -/
theorem support_pay_apply (x0 : Vec Ideal S1024x128 .f32) (x1 : Vec Ideal S128x128 .f32) (x2 : Vec Ideal S1x128 .f32)
    (x3 : Vec Ideal S1024x1 .f32) (p : Fin 1024) (q : Fin 128) :
    k1_pay1 x0 x1 x2 x3 (ix2 p q)
      = x3 (ix2 p (0 : Fin 1)) * ((0 + ∑ k : Fin 128, x0 (ix2 p k) * x1 (ix2 k q)) + x2 (ix2 (0 : Fin 1) q)) := by
  unfold k1_pay1
  try dsimp only
  show _ * (_ + _) = _
  refine congrArg₂ (· * ·) ?_ (congrArg₂ (· + ·) ?_ ?_)
  · refine (Cert.Lib.Column.colBroadcast_apply _ _ p q).trans ?_
    rw [shapeCast_self]
  · refine (support_dot_apply _ _ p q).trans ?_
    rw [zero_add]
    refine Finset.sum_congr rfl fun k _ => ?_
    show x0 (ix2 p k) * shapeCast S128x128 x1 shapeCasts_S128x128_S128x128 (ix2 k q) = _
    rw [shapeCast_self]
  · refine (broadcastTo_1b_ab_apply _ _ p q).trans ?_
    rw [shapeCast_self]

/-! ## Where the windows sit at a grid point -/

/-- At point `t` the feature band, the degree piece and the result piece are at block row `t`, block column 0;
    the weight and the bias row are at block (0, 0). -/
theorem support_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The four arrays as the region finds them: the features, the transposed weight, the bias row, the degree column. -/
abbrev feat1 (c : Dev nD) : S8192x128.Idx → EReal := V c (Pipeline.arrRef spec1 0)
abbrev wgt1 (c : Dev nD) : S128x128.Idx → EReal := V c (Pipeline.arrRef spec1 1)
abbrev bias1 (c : Dev nD) : S1x128.Idx → EReal := V c (Pipeline.arrRef spec1 2)
abbrev deg1 (c : Dev nD) : S8192x1.Idx → EReal := V c (Pipeline.arrRef spec1 3)

/-- The feature band of point `t` is rows `1024 t … 1024 t + 1023` of the features. -/
theorem featBand_apply (c : Dev nD) (t : Fin cfg1.N) (p : Fin 1024) (k : Fin 128) (n : Fin 8192)
    (hn : n.val = 1024 * t.val + p.val) :
    (iblk1 V c 0 t : Vec Ideal S1024x128 .f32) (ix2 p k) = feat1 V c (ix2 n k) := by
  obtain ⟨e0, e1, -⟩ := support_index_facts t
  unfold iblk1
  rw [View.read_apply]
  show V c main_arg0 _ = V c main_arg0 _
  congr 1
  funext a
  apply Fin.ext
  match a with
  | ⟨0, _⟩ => show win1_0.index t 0 * 1024 + 1 * p.val = n.val; rw [e0, hn]; omega
  | ⟨1, _⟩ => show win1_0.index t 1 * 128 + 1 * k.val = k.val; rw [e1]; omega

/-- The weight piece of any point is the whole transposed weight. -/
theorem wgtPiece_apply (c : Dev nD) (t : Fin cfg1.N) (k : Fin 128) (q : Fin 128) (m : Fin 128) (hm : m.val = q.val) :
    (iblk1 V c 1 t : Vec Ideal S128x128 .f32) (ix2 k q) = wgt1 V c (ix2 k m) := by
  obtain ⟨-, -, e2, e3, -⟩ := support_index_facts t
  unfold iblk1
  rw [View.read_apply]
  show V c main_call0_v1 _ = V c main_call0_v1 _
  congr 1
  funext a
  apply Fin.ext
  match a with
  | ⟨0, _⟩ => show win1_1.index t 0 * 128 + 1 * k.val = k.val; rw [e2]; omega
  | ⟨1, _⟩ => show win1_1.index t 1 * 128 + 1 * q.val = m.val; rw [e3, hm]; omega

/-- The bias piece of any point is the whole bias row. -/
theorem biasPiece_apply (c : Dev nD) (t : Fin cfg1.N) (q : Fin 128) (m : Fin 128) (hm : m.val = q.val) :
    (iblk1 V c 2 t : Vec Ideal S1x128 .f32) (ix2 (0 : Fin 1) q) = bias1 V c (ix2 (0 : Fin 1) m) := by
  obtain ⟨-, -, -, -, e4, e5, -⟩ := support_index_facts t
  unfold iblk1
  rw [View.read_apply]
  show V c main_call0_v2 _ = V c main_call0_v2 _
  congr 1
  funext a
  apply Fin.ext
  match a with
  | ⟨0, _⟩ => show win1_2.index t 0 * 1 + 1 * 0 = 0; rw [e4]
  | ⟨1, _⟩ => show win1_2.index t 1 * 128 + 1 * q.val = m.val; rw [e5, hm]; omega

/-- The degree piece of point `t` is rows `1024 t … 1024 t + 1023` of the degree column. -/
theorem degPiece_apply (c : Dev nD) (t : Fin cfg1.N) (p : Fin 1024) (n : Fin 8192)
    (hn : n.val = 1024 * t.val + p.val) :
    (iblk1 V c 3 t : Vec Ideal S1024x1 .f32) (ix2 p (0 : Fin 1)) = deg1 V c (ix2 n (0 : Fin 1)) := by
  obtain ⟨-, -, -, -, -, -, e6, e7, -⟩ := support_index_facts t
  unfold iblk1
  rw [View.read_apply]
  show V c main_call0_v0 _ = V c main_call0_v0 _
  congr 1
  funext a
  apply Fin.ext
  match a with
  | ⟨0, _⟩ => show win1_3.index t 0 * 1024 + 1 * p.val = n.val; rw [e6, hn]; omega
  | ⟨1, _⟩ => show win1_3.index t 1 * 1 + 1 * 0 = 0; rw [e7]

/-! ## The result as one function of the four arrays -/

/-- The scaled support: at `(n, f)`, the degree entry of row `n` times (row `n` of the features against column
    `f` of the transposed weight, plus the bias at `f`). -/
abbrev scaledSupport (c : Dev nD) : S8192x128.Idx → EReal := fun i =>
  deg1 V c (ix2 (i 0) (0 : Fin 1)) *
    ((0 + ∑ k : Fin 128, feat1 V c (ix2 (i 0) k) * wgt1 V c (ix2 k (i 1))) + bias1 V c (ix2 (0 : Fin 1) (i 1)))

/-- What point `t` sends back is piece `t` of that array. -/
theorem flushed1_eq (c : Dev nD) (t : Fin cfg1.N) :
    (dat1 (F := Ideal) V c).flushed 4 t = ((cfg1.win 4).blk t).view.read (Elt Ideal) (scaledSupport V c) := by
  show (cfg1.win 4).cut (grid1.coords t) ((dat1 V c).after 4 t) = _
  rw [after1_4]
  unfold out1_4
  rw [View.canon_unit_zero hz1]
  simp only [View.ld_unit_zero (S := S1024x128) hz1, View.ld_unit_zero (S := S128x128) hz1,
    View.ld_unit_zero (S := S1x128) hz1, View.ld_unit_zero (S := S1024x1) hz1]
  obtain ⟨-, -, -, -, -, -, -, -, e8, e9⟩ := support_index_facts t
  funext j
  obtain ⟨p, q, rfl⟩ : ∃ (p : Fin 1024) (q : Fin 128), j = ix2 p q := ⟨j 0, j 1, eq_ix2 j⟩
  refine (support_pay_apply (iblk1 V c 0 t) (iblk1 V c 1 t) (iblk1 V c 2 t) (iblk1 V c 3 t) p q).trans ?_
  have hn : ((((cfg1.win 4).blk t).view.emb (ix2 p q)) 0).val = 1024 * t.val + p.val := by
    show win1_4.index t 0 * 1024 + 1 * p.val = _
    rw [e8]; omega
  have hq : ((((cfg1.win 4).blk t).view.emb (ix2 p q)) 1).val = q.val := by
    show win1_4.index t 1 * 128 + 1 * q.val = _
    rw [e9]; omega
  rw [View.read_apply]
  show _ = deg1 V c (ix2 _ (0 : Fin 1)) *
    ((0 + ∑ k : Fin 128, feat1 V c (ix2 _ k) * wgt1 V c (ix2 k _)) + bias1 V c (ix2 (0 : Fin 1) _))
  refine congrArg₂ (· * ·) (degPiece_apply V c t p _ hn) (congrArg₂ (· + ·) (congrArg (0 + ·)
    (Finset.sum_congr rfl fun k _ => congrArg₂ (· * ·) (featBand_apply V c t p k _ hn) (wgtPiece_apply V c t k q _ hq)))
    (biasPiece_apply V c t q _ hq))

/-! ## The eight pieces tile the result -/

/-- An entry of the result lies in the piece of point `t` exactly when each of its coordinates lies in the
    piece's range on that axis. -/
theorem mem_piece1 (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_call0_v3).slice (win1_4.rect t)).set ↔ _
  rw [View.set_slice_whole, Rect.mem_set_unit]
  exact Iff.rfl

/-- Row `r` of the result is written by point `r / 1024` (and every point writes back). -/
theorem cover1 (i : S8192x128.Idx) :
    ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨-, -, -, -, -, -, -, -, e8, e9⟩ := support_index_facts t
  refine ⟨t, flush1_4 t, ?_⟩
  rw [mem_piece1]
  intro a
  match a with
  | ⟨0, _⟩ =>
    show win1_4.index t 0 * 1024 ≤ (i 0).val ∧ (i 0).val < win1_4.index t 0 * 1024 + 1024
    rw [e8, ht]; omega
  | ⟨1, _⟩ =>
    show win1_4.index t 1 * 128 ≤ (i 1).val ∧ (i 1).val < win1_4.index t 1 * 128 + 128
    rw [e9]; omega

/-! ## The result after the last point -/

/-- After the eight points the result array holds the scaled support of the four arrays at every entry. -/
theorem final1 (c : Dev nD) :
    (dat1 (F := Ideal) V c).arrAt 4 cfg1.N = fun i =>
      deg1 V c (ix2 (i 0) (0 : Fin 1)) *
        ((0 + ∑ k : Fin 128, feat1 V c (ix2 (i 0) k) * wgt1 V c (ix2 k (i 1))) + bias1 V c (ix2 (0 : Fin 1) (i 1))) :=
  (dat1 V c).arrAt_eq_of_cover 4 (scaledSupport V c) (fun t _ => flushed1_eq V c t) cover1

end Cert.KernelIdeal.Hand
end
-- ==== Proof.KernelIdeal.AggPayloads.lean ====
/-
  The aggregation step's four stored values, each read at one entry (p, q) of its 1024 x 128 block, and where the
  step's blocks sit in the arrays.

  At the extended reals a change of float format and a reshape to the same shape are the identity, so:
  the reset value is 0; the accumulation step is the accumulator plus the product of the matrix tile with the
  support tile onto a zero accumulator (a sum over the tile's 1024 columns); the diagonal step adds the support
  tile's own entry; and the last step scales the row by its entry in the 1024 x 1 column.
  Over the 8 x 8 grid, point t (row tile t / 8, column tile t % 8, the column tile moving fastest) reads the matrix tile
  (t / 8, t % 8), the support tile t % 8 and the column tile t / 8, and writes the output tile t / 8.
-/
import proofs.«155826_j5798205849837_2_alg».proof.Proof.Gen.KernelIdeal.Skeleton
import proofs.«155826_j5798205849837_2_alg».proof.Proof.Gen.KernelIdeal.Launch
import proofs.«155826_j5798205849837_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem

/-! ## The reset value -/

/-- The value the accumulator is reset to is 0 at every entry. -/
theorem k2_pay1_apply (p : Fin 1024) (q : Fin 128) : k2_pay1 (F := Ideal) (ix2 p q) = 0 := by
  dsimp only [k2_pay1]
  rw [shapeCast_self]
  show Ideal.ofBits .f32 0x00000000#32 = 0
  exact Ideal.ofBits_zero_f32

/-! ## The accumulation step -/

/-- The product's left operand is read at the output's row … -/
theorem agg_lhs_0 (i : S1024x128.Idx) (k : dot_S1024x1024_S1024x128_S1024x128_1_0_0_1_n_n.contr.Idx) :
    (dot_S1024x1024_S1024x128_S1024x128_1_0_0_1_n_n.lhsIdx i k 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl

/-- … and its right operand at the output's column. -/
theorem agg_rhs_1 (i : S1024x128.Idx) (k : dot_S1024x1024_S1024x128_S1024x128_1_0_0_1_n_n.contr.Idx) :
    (dot_S1024x1024_S1024x128_S1024x128_1_0_0_1_n_n.rhsIdx i k 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The accumulator plus the tile product onto a zero accumulator, the product a sum over the tile's columns. -/
theorem k2_pay2_apply (v3 : Vec Ideal S1024x128 .f32) (v4 : Vec Ideal S1024x1024 .f32) (v6 : Vec Ideal S1024x128 .f32)
    (p : Fin 1024) (q : Fin 128) :
    k2_pay2 v3 v4 v6 (ix2 p q) = v3 (ix2 p q) + (0 + ∑ k : Fin 1024, v4 (ix2 p k) * v6 (ix2 k q)) := by
  dsimp only [k2_pay2]
  simp only [shapeCast_self]
  show v3 (ix2 p q) + FloatOps.matmul dot_S1024x1024_S1024x128_S1024x128_1_0_0_1_n_n none
    (truncf (F := Ideal) .bf16 v4 bitsLt_bf16_f32) (truncf (F := Ideal) .bf16 v6 bitsLt_bf16_f32)
    (constant S1024x128 .f32 0x00000000#32) (ix2 p q) = _
  rw [Ideal.matmul_constant_zero_apply, zero_add,
    ← Equiv.sum_comp (contrEquiv1 dot_S1024x1024_S1024x128_S1024x128_1_0_0_1_n_n 1024 rfl rfl).symm]
  refine congrArg (v3 (ix2 p q) + ·) (Finset.sum_congr rfl fun k _ => ?_)
  have hk := contrEquiv1_symm_val dot_S1024x1024_S1024x128_S1024x128_1_0_0_1_n_n 1024 rfl rfl k
  have el : dot_S1024x1024_S1024x128_S1024x128_1_0_0_1_n_n.lhsIdx (ix2 p q)
      ((contrEquiv1 dot_S1024x1024_S1024x128_S1024x128_1_0_0_1_n_n 1024 rfl rfl).symm k) = ix2 p k :=
    funext fun a => Fin.ext (by
      match a with
      | ⟨0, _⟩ => exact agg_lhs_0 _ _
      | ⟨1, _⟩ => exact (dot_S1024x1024_S1024x128_S1024x128_1_0_0_1_n_n.lhsIdx_val_of_single rfl _ _).trans hk)
  have er : dot_S1024x1024_S1024x128_S1024x128_1_0_0_1_n_n.rhsIdx (ix2 p q)
      ((contrEquiv1 dot_S1024x1024_S1024x128_S1024x128_1_0_0_1_n_n 1024 rfl rfl).symm k) = ix2 k q :=
    funext fun a => Fin.ext (by
      match a with
      | ⟨0, _⟩ => exact (dot_S1024x1024_S1024x128_S1024x128_1_0_0_1_n_n.rhsIdx_val_of_single rfl _ _).trans hk
      | ⟨1, _⟩ => exact agg_rhs_1 _ _)
  show v4 (dot_S1024x1024_S1024x128_S1024x128_1_0_0_1_n_n.lhsIdx (ix2 p q) _)
    * v6 (dot_S1024x1024_S1024x128_S1024x128_1_0_0_1_n_n.rhsIdx (ix2 p q) _) = _
  rw [el, er]

/-! ## The diagonal step -/

/-- The accumulator plus the support tile's own entry. -/
theorem k2_pay3_apply (v20 v21 : Vec Ideal S1024x128 .f32) (p : Fin 1024) (q : Fin 128) :
    k2_pay3 v20 v21 (ix2 p q) = v20 (ix2 p q) + v21 (ix2 p q) := by
  dsimp only [k2_pay3]
  simp only [shapeCast_self]
  rfl

/-! ## The last step -/

/-- The row's entry in the 1024 x 1 column times the accumulator. -/
theorem k2_pay4_apply (v20 : Vec Ideal S1024x1 .f32) (v22 : Vec Ideal S1024x128 .f32) (p : Fin 1024) (q : Fin 128) :
    k2_pay4 v20 v22 (ix2 p q) = v20 (ix2 p (0 : Fin 1)) * v22 (ix2 p q) := by
  dsimp only [k2_pay4]
  simp only [shapeCast_self]
  exact congrArg (· * v22 (ix2 p q)) (Cert.Lib.Column.colBroadcast_apply v20 broadcasts_S1024x1_S1024x128 p q)

/-! ## Where the blocks sit -/

/-- The block indices of the step's four windows at point t of the 8 x 8 grid, decided over its 64 points. -/
theorem agg_index_facts : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0 :=
  (by decide +kernel : ∀ t : Fin grid2.N, _)

end Cert.KernelIdeal.Hand

end
-- ==== Proof.KernelIdeal.AggregateValue.lean ====
/-
  The aggregation at the ideal values.

  The accumulator is followed through the eight column tiles of a row tile: after tile j it holds, at row p and
  feature q, the running sum of the specification for row 1024 i + p after j + 1 tiles — the products of the
  adjacency row with the support's column over the tiles so far, plus the support's own entry once the diagonal's
  tile has passed.  At the last tile the row is scaled by its entry of the scaling column and stored, and the
  eight stored tiles cover the result.
-/
import proofs.«155826_j5798205849837_2_alg».proof.Proof.KernelIdeal.Aggregate
import proofs.«155826_j5798205849837_2_alg».proof.Proof.KernelIdeal.AggPayloads
import proofs.«155826_j5798205849837_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
open scoped BigOperators
namespace Cert.KernelIdeal.Hand
open Cert.KernelIdeal Cert.KernelIdeal.Gen
open Idealize.ShloMosaic Idealize.ShloMosaic.TcCoe Idealize.ShloMosaic.ValueIdx Idealize.SL.Sem
open Idealize.ShloMosaic.Pipeline (Dat)

/-! ## The specification's running sum, one tile at a time -/

/-- One more tile: the tile's product is added, and the support's own entry when the tile holds the diagonal. -/
theorem acc_succ (A : Cert.Gcn.SA.Idx → EReal) (S : Cert.Gcn.SX.Idx → EReal) (r : Fin 8192) (q : Fin 128) (J : ℕ) (h : J + 1 ≤ 8) :
    Cert.Gcn.acc A S r q (J + 1) h
      = if J = r.val / 1024 then
          (Cert.Gcn.acc A S r q J (by omega) + Cert.Gcn.tileProd A S ⟨J, by omega⟩ r q) + S (ix2 r q)
        else Cert.Gcn.acc A S r q J (by omega) + Cert.Gcn.tileProd A S ⟨J, by omega⟩ r q := by
  rw [Cert.Gcn.acc]

/-- Before any tile the running sum is zero. -/
theorem acc_of_eq_zero (A : Cert.Gcn.SA.Idx → EReal) (S : Cert.Gcn.SX.Idx → EReal) (r : Fin 8192) (q : Fin 128) (J : ℕ) (h : J ≤ 8)
    (hJ : J = 0) : Cert.Gcn.acc A S r q J h = 0 := by
  subst hJ; rfl

/-- The running sum depends on the feature and on the number of tiles only through their values. -/
theorem acc_congr (A : Cert.Gcn.SA.Idx → EReal) (S : Cert.Gcn.SX.Idx → EReal) (r : Fin 8192) (q q' : Fin 128) (J J' : ℕ)
    (h : J ≤ 8) (h' : J' ≤ 8) (hq : q = q') (hJ : J = J') : Cert.Gcn.acc A S r q J h = Cert.Gcn.acc A S r q' J' h' := by
  subst hq; subst hJ; rfl

/-! ## One step of the accumulator at an entry -/

/-- Row p, feature q of the accumulator after a point: what it held (zero at a first tile) plus the product of
    row p of the adjacency tile with column q of the support tile, plus the support tile's own entry at the
    diagonal's tile. -/
theorem accStep_apply (n : ℕ) (s : Vec Ideal S1024x128 .f32) (A : Vec Ideal S1024x1024 .f32) (S : Vec Ideal S1024x128 .f32)
    (p : Fin 1024) (q : Fin 128) :
    accStep (F := Ideal) n s A S (ix2 p q)
      = if n % 8 = n / 8 then
          ((if n % 8 = 0 then 0 else s (ix2 p q)) + (0 + ∑ k : Fin 1024, A (ix2 p k) * S (ix2 k q))) + S (ix2 p q)
        else (if n % 8 = 0 then 0 else s (ix2 p q)) + (0 + ∑ k : Fin 1024, A (ix2 p k) * S (ix2 k q)) := by
  unfold accStep
  by_cases h1 : n % 8 = n / 8
  · rw [if_pos h1, if_pos h1, k2_pay3_apply, k2_pay2_apply]
    by_cases h0 : n % 8 = 0
    · simp only [if_pos h0, k2_pay1_apply]
    · simp only [if_neg h0]
  · rw [if_neg h1, if_neg h1, k2_pay2_apply]
    by_cases h0 : n % 8 = 0
    · simp only [if_pos h0, k2_pay1_apply]
    · simp only [if_neg h0]

variable (V : (c : Dev nD) → (b : Ref sig .tc) → Buf (Elt Ideal) ((c : Thread nD τ).loc b))

/-! ## The three operands as the call finds them, and their tiles -/

/-- The adjacency matrix, -/
abbrev adj2 (c : Dev nD) : S8192x8192.Idx → EReal := V c (Pipeline.arrRef spec2 0)
/-- the scaled support, -/
abbrev sup2 (c : Dev nD) : S8192x128.Idx → EReal := V c (Pipeline.arrRef spec2 1)
/-- the scaling column. -/
abbrev dcol2 (c : Dev nD) : S8192x1.Idx → EReal := V c (Pipeline.arrRef spec2 2)

/-- The adjacency tile of point t = 8 i + j is rows 1024 i .., columns 1024 j .. of the matrix. -/
theorem adjTile_apply (c : Dev nD) (t : Fin cfg2.N) (p k : Fin 1024) (n m : Fin 8192)
    (hn : n.val = 1024 * (t.val / 8) + p.val) (hm : m.val = 1024 * (t.val % 8) + k.val) :
    (iblk2 V c 0 t : Vec Ideal S1024x1024 .f32) (ix2 p k) = adj2 V c (ix2 n m) := by
  obtain ⟨e0, e1, -⟩ := agg_index_facts t
  unfold iblk2
  rw [View.read_apply]
  show V c main_arg1 _ = V c main_arg1 _
  congr 1
  funext a
  apply Fin.ext
  match a with
  | ⟨0, _⟩ => show win2_0.index t 0 * 1024 + 1 * p.val = n.val; rw [e0, hn]; omega
  | ⟨1, _⟩ => show win2_0.index t 1 * 1024 + 1 * k.val = m.val; rw [e1, hm]; omega

/-- The support tile of point t = 8 i + j is rows 1024 j .. of the scaled support. -/
theorem supTile_apply (c : Dev nD) (t : Fin cfg2.N) (k : Fin 1024) (q : Fin 128) (m : Fin 8192)
    (hm : m.val = 1024 * (t.val % 8) + k.val) :
    (iblk2 V c 1 t : Vec Ideal S1024x128 .f32) (ix2 k q) = sup2 V c (ix2 m q) := by
  obtain ⟨-, -, e2, e3, -⟩ := agg_index_facts t
  unfold iblk2
  rw [View.read_apply]
  show V c main_call0_v3 _ = V c main_call0_v3 _
  congr 1
  funext a
  apply Fin.ext
  match a with
  | ⟨0, _⟩ => show win2_1.index t 0 * 1024 + 1 * k.val = m.val; rw [e2, hm]; omega
  | ⟨1, _⟩ => show win2_1.index t 1 * 128 + 1 * q.val = q.val; rw [e3]; omega

/-- The scaling tile of point t = 8 i + j is rows 1024 i .. of the scaling column. -/
theorem colTile_apply (c : Dev nD) (t : Fin cfg2.N) (p : Fin 1024) (n : Fin 8192)
    (hn : n.val = 1024 * (t.val / 8) + p.val) :
    (iblk2 V c 2 t : Vec Ideal S1024x1 .f32) (ix2 p (0 : Fin 1)) = dcol2 V c (ix2 n (0 : Fin 1)) := by
  obtain ⟨-, -, -, -, e4, e5, -⟩ := agg_index_facts t
  unfold iblk2
  rw [View.read_apply]
  show V c main_call0_v0 _ = V c main_call0_v0 _
  congr 1
  funext a
  apply Fin.ext
  match a with
  | ⟨0, _⟩ => show win2_2.index t 0 * 1024 + 1 * p.val = n.val; rw [e4, hn]; omega
  | ⟨1, _⟩ => show win2_2.index t 1 * 1 + 1 * 0 = 0; rw [e5]

/-! ## The accumulator after each point -/

/-- One point's step carries the specification's running sum from j tiles to j + 1: for tiles A_t, S_t that are the
    adjacency's and the support's tiles of point n = 8 i + j (read at row p, resp. feature q). -/
theorem step_apply (A : Cert.Gcn.SA.Idx → EReal) (S : Cert.Gcn.SX.Idx → EReal) (n : ℕ) (hn : n < 64)
    (s : Vec Ideal S1024x128 .f32) (A_t : Vec Ideal S1024x1024 .f32) (S_t : Vec Ideal S1024x128 .f32)
    (p : Fin 1024) (q : Fin 128) (r : Fin 8192) (hr : r.val = 1024 * (n / 8) + p.val)
    (hA : ∀ (k : Fin 1024) (m : Fin 8192), m.val = 1024 * (n % 8) + k.val → A_t (ix2 p k) = A (ix2 r m))
    (hS : ∀ (k : Fin 1024) (m : Fin 8192), m.val = 1024 * (n % 8) + k.val → S_t (ix2 k q) = S (ix2 m q))
    (hs : ¬n % 8 = 0 → s (ix2 p q) = Cert.Gcn.acc A S r q (n % 8) (by omega)) :
    accStep (F := Ideal) n s A_t S_t (ix2 p q) = Cert.Gcn.acc A S r q (n % 8 + 1) (by omega) := by
  have hp : p.val < 1024 := p.isLt
  have hprod : (0 + ∑ k : Fin 1024, A_t (ix2 p k) * S_t (ix2 k q))
      = Cert.Gcn.tileProd A S ⟨n % 8, by omega⟩ r q := by
    unfold Cert.Gcn.tileProd
    refine congrArg (0 + ·) (Finset.sum_congr rfl fun k _ => ?_)
    have hm : (Cert.Gcn.col ⟨n % 8, by omega⟩ k).val = 1024 * (n % 8) + k.val := by
      show n % 8 * 1024 + k.val = _; omega
    rw [hA k _ hm, hS k _ hm]
  have hacc : (if n % 8 = 0 then (0 : EReal) else s (ix2 p q)) = Cert.Gcn.acc A S r q (n % 8) (by omega) := by
    by_cases h0 : n % 8 = 0
    · rw [if_pos h0]; exact (acc_of_eq_zero _ _ r q _ _ h0).symm
    · rw [if_neg h0]; exact hs h0
  rw [accStep_apply, acc_succ, hacc, hprod]
  by_cases hd : n % 8 = n / 8
  · have hd' : n % 8 = r.val / 1024 := by rw [hr]; omega
    rw [if_pos hd, if_pos hd', hS p r (by rw [hr, hd])]
  · have hd' : ¬n % 8 = r.val / 1024 := by rw [hr]; omega
    rw [if_neg hd, if_neg hd']

/-- After point t = 8 i + j the accumulator holds, at row p and feature q, the specification's running sum of
    row 1024 i + p after j + 1 tiles. -/
theorem scrAt2_apply (c : Dev nD) : ∀ (n : ℕ) (hn : n < cfg2.N) (p : Fin 1024) (q : Fin 128) (r : Fin 8192),
    r.val = 1024 * (n / 8) + p.val →
    scrAt2 V c n hn (ix2 p q) = Cert.Gcn.acc (adj2 V c) (sup2 V c) r q (n % 8 + 1) (by omega)
  | 0, hn, p, q, r, hr =>
    step_apply (adj2 V c) (sup2 V c) 0 (by omega) _ (iblk2 V c 0 ⟨0, hn⟩) (iblk2 V c 1 ⟨0, hn⟩) p q r hr
      (fun k m hm => adjTile_apply V c ⟨0, hn⟩ p k r m hr hm) (fun k m hm => supTile_apply V c ⟨0, hn⟩ k q m hm)
      (fun h => absurd rfl h)
  | n + 1, hn, p, q, r, hr => by
    have hN : n + 1 < 64 := lt_of_lt_of_eq hn (show cfg2.N = 64 from N_2)
    show accStep (n + 1) (scrAt2 V c n (Nat.lt_of_succ_lt hn)) (iblk2 V c 0 ⟨n + 1, hn⟩) (iblk2 V c 1 ⟨n + 1, hn⟩) (ix2 p q) = _
    refine step_apply (adj2 V c) (sup2 V c) (n + 1) hN _ (iblk2 V c 0 ⟨n + 1, hn⟩) (iblk2 V c 1 ⟨n + 1, hn⟩) p q r hr
      (fun k m hm => adjTile_apply V c ⟨n + 1, hn⟩ p k r m hr hm) (fun k m hm => supTile_apply V c ⟨n + 1, hn⟩ k q m hm)
      (fun h => ?_)
    have hr' : r.val = 1024 * (n / 8) + p.val := by rw [hr]; omega
    refine (scrAt2_apply c n (Nat.lt_of_succ_lt hn) p q r hr').trans ?_
    exact acc_congr _ _ r q q _ _ _ _ rfl (by omega)

/-! ## What the last tile of a row tile sends back, and the result -/

/-- The result as one function of the three operands. -/
abbrev aggOut (c : Dev nD) : S8192x128.Idx → EReal := Cert.Gcn.agg (adj2 V c) (sup2 V c) (dcol2 V c)

/-- At a last column tile the stored tile is the row tile of the result. -/
theorem flushed2_eq (c : Dev nD) (t : Fin cfg2.N) (hf : (cfg2.win 3).flush t = true) :
    (dat2 (F := Ideal) V c).flushed 3 t = ((cfg2.win 3).blk t).view.read (Elt Ideal) (aggOut V c) := by
  have h7 : t.val % 8 = 7 := (flush2_3 t).mp hf
  obtain ⟨-, -, -, -, -, -, e6, e7⟩ := agg_index_facts t
  show (cfg2.win 3).cut (grid2.coords t) ((dat2 V c).after 3 t) = _
  rw [after2_3]
  unfold outsAt2
  dsimp only
  funext j
  obtain ⟨p, q, rfl⟩ : ∃ (p : Fin 1024) (q : Fin 128), j = ix2 p q := ⟨j 0, j 1, eq_ix2 j⟩
  refine (k2_pay4_apply (iblk2 V c 2 t) (scrAt2 V c t.val t.isLt) p q).trans ?_
  have hn : ((((cfg2.win 3).blk t).view.emb (ix2 p q)) 0).val = 1024 * (t.val / 8) + p.val := by
    show win2_3.index t 0 * 1024 + 1 * p.val = _
    rw [e6]; omega
  have hq : q = (((cfg2.win 3).blk t).view.emb (ix2 p q)) 1 := by
    apply Fin.ext
    show q.val = win2_3.index t 1 * 128 + 1 * q.val
    rw [e7]; omega
  rw [View.read_apply]
  show _ = dcol2 V c (ix2 _ (0 : Fin 1)) * Cert.Gcn.acc (adj2 V c) (sup2 V c) _ _ 8 le_rfl
  refine congrArg₂ (· * ·) (colTile_apply V c t p _ hn) ?_
  refine (scrAt2_apply V c t.val t.isLt p q _ hn).trans ?_
  exact acc_congr _ _ _ q _ _ _ _ _ hq (by omega)

/-- An entry of the result lies in the tile of point t exactly when each coordinate lies in the tile's range. -/
theorem mem_tile2 (t : Fin cfg2.N) (i : S8192x128.Idx) :
    i ∈ ((cfg2.win 3).blk t).view.set ↔ ∀ a : Fin 2, win2_3.index t a * S1024x128.size a ≤ (i a).val ∧ (i a).val < win2_3.index t a * S1024x128.size a + S1024x128.size a := by
  show i ∈ ((View.whole main_v0).slice (win2_3.rect t)).set ↔ _
  rw [View.set_slice_whole, Rect.mem_set_unit]
  exact Iff.rfl

/-- Row r of the result is written back by the last column tile of its row tile, point 8 (r / 1024) + 7. -/
theorem cover2 (i : S8192x128.Idx) :
    ∃ t : Fin cfg2.N, (cfg2.win 3).flush t = true ∧ i ∈ ((cfg2.win 3).blk t).view.set := by
  have hi0 : (i 0).val < 8192 := (i 0).isLt
  have hi1 : (i 1).val < 128 := (i 1).isLt
  have hN : cfg2.N = 64 := N_2
  obtain ⟨t, ht⟩ : ∃ t : Fin cfg2.N, t.val = 8 * ((i 0).val / 1024) + 7 := ⟨⟨8 * ((i 0).val / 1024) + 7, by rw [hN]; omega⟩, rfl⟩
  obtain ⟨-, -, -, -, -, -, e6, e7⟩ := agg_index_facts t
  refine ⟨t, (flush2_3 t).mpr (by rw [ht]; omega), ?_⟩
  rw [mem_tile2]
  intro a
  match a with
  | ⟨0, _⟩ =>
    show win2_3.index t 0 * 1024 ≤ (i 0).val ∧ (i 0).val < win2_3.index t 0 * 1024 + 1024
    rw [e6, ht]; omega
  | ⟨1, _⟩ =>
    show win2_3.index t 1 * 128 ≤ (i 1).val ∧ (i 1).val < win2_3.index t 1 * 128 + 128
    rw [e7]; omega

/-- After the sixty-four points the result array holds the aggregation of the three operands as the call found them. -/
theorem final2 (c : Dev nD) :
    (dat2 (F := Ideal) V c).arrAt 3 cfg2.N
      = Cert.Gcn.agg (V c (Pipeline.arrRef spec2 0)) (V c (Pipeline.arrRef spec2 1)) (V c (Pipeline.arrRef spec2 2)) :=
  (dat2 V c).arrAt_eq_of_cover 3 (aggOut V c) (fun t hf => flushed2_eq V c t hf) cover2

end Cert.KernelIdeal.Hand
end
-- ==== Proof.KernelIdeal.Result.lean ====
/-
  The result buffer at the ideal instance, as one function of the four arguments.

  The last region's output array is the aggregation of its three input arrays; read back through the
  boundaries these are the adjacency as launched, the second region's output array — the row-scaled
  support of the arguments, its own inputs being the features, the host's transposed weight and bias row
  and the first region's column — and that column, the reciprocal roots of the adjacency's row sums plus one.
-/
import proofs.«155826_j5798205849837_2_alg».proof.Proof.KernelIdeal.Chain
import proofs.«155826_j5798205849837_2_alg».proof.Proof.KernelIdeal.Parts
import proofs.«155826_j5798205849837_2_alg».proof.Proof.KernelIdeal.RowSumsValue
import proofs.«155826_j5798205849837_2_alg».proof.Proof.KernelIdeal.SupportValue
import proofs.«155826_j5798205849837_2_alg».proof.Proof.KernelIdeal.AggregateValue
import proofs.«155826_j5798205849837_2_alg».proof.Proof.Spec
set_option maxRecDepth 16384
noncomputable section
open scoped BigOperators
namespace Cert.KernelIdeal.Hand
open Cert.KernelIdeal Cert.KernelIdeal.Gen
open Idealize.ShloMosaic Idealize.ShloMosaic.TcCoe Idealize.ShloMosaic.ValueIdx
open Idealize.SL Idealize.SL.Sem
open Idealize.ShloMosaic.Pipeline (Dat)
variable (m : (ℓ : Loc nD τ sig) → Buf (Elt Ideal) ℓ) (ρ : Dev nD → PrngReg)

/-- The first region's output array: the column of reciprocal roots of the launched adjacency. -/
theorem dinv_col (c : Dev nD) :
    (dat0 (F := Ideal) (V0 m ρ) c).arrAt 1 cfg0.N
      = Cert.Gcn.dinvCol (m ((c : Thread nD τ).loc main_arg1)) :=
  final0 (V0 m ρ) c

/-- The second region's output array: the row-scaled support of the launched arguments. -/
theorem sup_arr (c : Dev nD) :
    (dat1 (F := Ideal) (V2 m ρ) c).arrAt 4 cfg1.N
      = Cert.Gcn.scaledArr (m ((c : Thread nD τ).loc main_arg0)) (m ((c : Thread nD τ).loc main_arg1))
          (m ((c : Thread nD τ).loc main_arg2)) (m ((c : Thread nD τ).loc main_arg3)) := by
  have hd : deg1 (V2 m ρ) c = Cert.Gcn.dinvCol (m ((c : Thread nD τ).loc main_arg1)) :=
    (W2_dinv m ρ c).trans (dinv_col m ρ c)
  have hx : feat1 (V2 m ρ) c = m ((c : Thread nD τ).loc main_arg0) := W2_x m ρ c
  have hw : wgt1 (V2 m ρ) c
      = transpose S128x128 [1, 0] (m ((c : Thread nD τ).loc main_arg2) : S128x128.Idx → EReal) transposes_S128x128_S128x128_1_0 :=
    W2_wt m ρ c
  have hb : bias1 (V2 m ρ) c
      = shapeCast S1x128 (m ((c : Thread nD τ).loc main_arg3) : S128.Idx → EReal) shapeCasts_S128_S1x128 :=
    W2_b2 m ρ c
  rw [final1 (V2 m ρ) c, hd, hx, hw, hb]
  exact scaled_of_parts _ _ _ _

/-- The result buffer at the end. -/
theorem result_outK (c : Dev nD) :
    W4 m ρ c (Proc.devRef .tc main_v0)
      = fun i => Cert.Gcn.outK (m ((c : Thread nD τ).loc main_arg0)) (m ((c : Thread nD τ).loc main_arg1))
          (m ((c : Thread nD τ).loc main_arg2)) (m ((c : Thread nD τ).loc main_arg3)) (i 0) (i 1) := by
  rw [result_eq m ρ c, final2 (V3 m ρ) c]
  rw [show V3 m ρ c (Pipeline.arrRef spec2 0) = _ from W3_adj m ρ c,
    show V3 m ρ c (Pipeline.arrRef spec2 1) = _ from W3_sup m ρ c, sup_arr m ρ c,
    show V3 m ρ c (Pipeline.arrRef spec2 2) = _ from W3_dinv m ρ c, dinv_col m ρ c]
  funext i
  exact Cert.Gcn.agg_eq_outK _ _ _ _ i

end Cert.KernelIdeal.Hand
end
-- ==== Proof.EyeWord.lean ====
/-
  The identity matrix's entry, as the programs form it.

  Both the normalising side and the precondition build the identity matrix by comparing a row counter (plus the
  zero word) with a column counter, both 32-bit words of numbers below 8192, and turning the one-bit answer into a
  number. Words of numbers below 2^32 are equal only when the numbers are, so the entry is 1 on the diagonal and 0 off it.
-/
import proofs.«155826_j5798205849837_2_alg».proof.Proof.Spec

noncomputable section

namespace Cert.EyeWord

open Idealize.ShloMosaic

/-- Two counters below 8192 have the same 32-bit word only when they are equal. -/
theorem ofNat32_inj (n j : Fin 8192) : BitVec.ofNat 32 n.val = BitVec.ofNat 32 j.val ↔ n = j := by
  constructor
  · intro h
    have h' := congrArg BitVec.toNat h
    simp only [BitVec.toNat_ofNat] at h'
    have hn := n.isLt
    have hj := j.isLt
    apply Fin.ext
    omega
  · rintro rfl; rfl

/-- The compared counters, turned into a number, are 1 on the diagonal and 0 off it. -/
theorem eyeWord (n j : Fin 8192) :
    FloatOps.uitofp (F := Ideal) .f32 (IntOp.cmpi .eq (IntOp.addi (BitVec.ofNat 32 n.val) 0#32) (BitVec.ofNat 32 j.val))
      = Cert.Gcn.eye n j := by
  unfold Cert.Gcn.eye IntOp.addi IntOp.cmpi
  rw [BitVec.add_zero]
  by_cases h : n = j
  · subst h
    rw [if_pos rfl]
    have e : (BitVec.ofNat 32 n.val == BitVec.ofNat 32 n.val) = true := beq_self_eq_true _
    rw [e]
    show (((BitVec.ofBool true).toNat : ℝ) : EReal) = 1
    simp
  · rw [if_neg h]
    have e : (BitVec.ofNat 32 n.val == BitVec.ofNat 32 j.val) = false := by
      rw [beq_eq_false_iff_ne]
      exact fun e => h ((ofNat32_inj n j).mp e)
    rw [e]
    show (((BitVec.ofBool false).toNat : ℝ) : EReal) = 0
    simp

end Cert.EyeWord

end
-- ==== Proof.RefValue.lean ====
/-
  The normalising side, read index by index.

  Its result is a chain of whole-array stages: the identity matrix as a compared pair of counters turned into a
  number; A + I; the row sums of A + I; their power (-1/2); the matrix scaled by that power along its rows and along
  its columns; the support x Wᵀ + b; and the product of the scaled matrix with the support. Each stage is read here at
  one index as the corresponding formula over the four argument arrays, and the last stage is the layer's value.
-/
import proofs.«155826_j5798205849837_2_alg».proof.Proof.Gen.ReferenceIdeal.Read
import proofs.«155826_j5798205849837_2_alg».proof.Proof.Spec
import proofs.«155826_j5798205849837_2_alg».proof.Proof.EyeWord

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

/-! ## The identity matrix -/

/-- The compared counters, turned into a number, are 1 on the diagonal and 0 off it. -/
theorem eye_apply (n j : Fin 8192) : val_main_v5 (F := Ideal) (ix2 n j) = Cert.Gcn.eye n j := by
  rw [val_main_v5_apply, val_main_v4_apply, val_main_v3_apply, val_main_v0_apply, val_main_v2_apply, val_main_c_apply,
    val_main_v1_apply]
  exact Cert.EyeWord.eyeWord n j

/-! ## A + I, its row sums, and their power -/

variable (x : (⟨S8192x128, .f32⟩ : BufTy).Contents (Elt Ideal)) (A : (⟨S8192x8192, .f32⟩ : BufTy).Contents (Elt Ideal))
  (W : (⟨S128x128, .f32⟩ : BufTy).Contents (Elt Ideal)) (b : (⟨S128, .f32⟩ : BufTy).Contents (Elt Ideal))

/-- A + I at (n, j). -/
theorem ahat_apply (n j : Fin 8192) : val_main_v6 (F := Ideal) A (ix2 n j) = Cert.Gcn.ahat A n j := by
  rw [val_main_v6_apply, eye_apply]
  rfl

/-- Row n of A + I summed from the zero word. -/
theorem rowsum_apply (n : Fin 8192) :
    val_main_v7 (F := Ideal) A (ix1 n) = 0 + ∑ j : Fin 8192, Cert.Gcn.ahat A n j := by
  rw [val_main_v7_apply, val_main_cst_apply]
  show Ideal.ofBits .f32 0x00000000#32 + _ = _
  rw [Ideal.ofBits_zero_f32]
  refine congrArg (0 + ·) (Finset.sum_congr rfl fun j _ => ?_)
  have e : idx_main_v7 (ix1 n) j = ix2 n j :=
    funext fun a => Fin.ext (by match a with | ⟨0, _⟩ => rfl | ⟨1, _⟩ => rfl)
  rw [e, ahat_apply]

/-- The row sum to the power whose exponent is the word of -0.5. -/
theorem dinv_apply (n : Fin 8192) : val_main_v9 (F := Ideal) A (ix1 n) = Cert.Gcn.dinvR A n := by
  rw [val_main_v9_apply, val_main_v8_apply, val_main_cst_0_apply, rowsum_apply]
  rfl

/-! ## The normalised matrix -/

/-- The matrix scaled along its rows, then along its columns: the row's factor is read through a column of width one,
    the column's through a row of height one. -/
theorem anorm_apply (n j : Fin 8192) : val_main_v15 (F := Ideal) A (ix2 n j) = Cert.Gcn.anorm A n j := by
  rw [val_main_v15_apply, val_main_v12_apply, val_main_v11_apply, val_main_v10_apply, val_main_v14_apply,
    val_main_v13_apply]
  have e1 : idx_main_v10 (idx_main_v11 (ix2 n j)) = ix1 n :=
    funext fun a => Fin.ext (by match a with | ⟨0, _⟩ => rfl)
  have e2 : idx_main_v13 (idx_main_v14 (ix2 n j)) = ix1 j :=
    funext fun a => Fin.ext (by match a with | ⟨0, _⟩ => rfl)
  rw [e1, e2, dinv_apply, dinv_apply, ahat_apply]
  rfl

/-! ## The support -/

/-- x Wᵀ + b at (j, f): the product reads W through its transpose, the bias through a row of height one. -/
theorem support_apply (j : Fin 8192) (f : Fin 128) :
    val_main_v20 (F := Ideal) x W b (ix2 j f) = Cert.Gcn.support x W b j f := by
  rw [val_main_v20_apply, val_main_v17_apply, val_main_v19_apply, val_main_v18_apply]
  have e : idx_main_v18 (idx_main_v19 (ix2 j f)) = ix1 f :=
    funext fun a => Fin.ext (by match a with | ⟨0, _⟩ => rfl)
  rw [e]
  unfold Cert.Gcn.support
  rw [zero_add]
  show (∑ k : Fin 128, _) + b (ix1 f) = _
  refine congrArg (· + b (ix1 f)) (Finset.sum_congr rfl fun k _ => ?_)
  rw [val_main_v16_apply]
  have el : lidx_main_v17 (ix2 j f) k = ix2 j k :=
    funext fun a => Fin.ext (by match a with | ⟨0, _⟩ => rfl | ⟨1, _⟩ => rfl)
  have er : idx_main_v16 (ridx_main_v17 (ix2 j f) k) = ix2 f k :=
    funext fun a => Fin.ext (by match a with | ⟨0, _⟩ => rfl | ⟨1, _⟩ => rfl)
  rw [el, er]

/-! ## The result -/

/-- The last stage, the normalised matrix times the support, is the layer's value at every index. -/
theorem val_eq_outR :
    val_main_v21 (F := Ideal) x A W b = fun i => Cert.Gcn.outR x A W b (i 0) (i 1) := by
  funext i
  obtain ⟨n, f, rfl⟩ : ∃ (n : Fin 8192) (f : Fin 128), i = ix2 n f := ⟨i 0, i 1, eq_ix2 i⟩
  rw [val_main_v21_apply]
  show _ = Cert.Gcn.outR x A W b n f
  unfold Cert.Gcn.outR
  rw [zero_add]
  refine Finset.sum_congr rfl fun k _ => ?_
  have el : lidx_main_v21 (ix2 n f) k = ix2 n k :=
    funext fun a => Fin.ext (by match a with | ⟨0, _⟩ => rfl | ⟨1, _⟩ => rfl)
  have er : ridx_main_v21 (ix2 n f) k = ix2 k f :=
    funext fun a => Fin.ext (by match a with | ⟨0, _⟩ => rfl | ⟨1, _⟩ => rfl)
  rw [el, er, anorm_apply, support_apply]

/-! ## The run -/

/-- Every weakly fair execution of the normalising side ends with its result array holding the layer's value of the
    argument arrays it started from, and those arrays unchanged. -/
theorem run_outR (m' : (ℓ : Loc nD τ sig) → Buf (Elt Ideal) ℓ) (ρ' : Dev nD → PrngReg) :
    θ_run Cert.ReferenceIdeal.defs (onTc (τ := τ) (main (F := Ideal))) ⟨m', fun _ => 0, ρ'⟩ (fun r => ∀ c : Dev nD,
      r.2.mem ((c.tc : Thread nD τ).loc main_v21)
          = (fun i => Cert.Gcn.outR (m' ((c.tc : Thread nD τ).loc main_arg0)) (m' ((c.tc : Thread nD τ).loc main_arg1))
              (m' ((c.tc : Thread nD τ).loc main_arg2)) (m' ((c.tc : Thread nD τ).loc main_arg3)) (i 0) (i 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run Cert.ReferenceIdeal.defs _ _).mono
    (fun _ h c => ⟨(h c).1.trans ((val_main_v21_eq _ _ _ _).trans (val_eq_outR _ _ _ _)), (h c).2⟩)
    (Cert.ReferenceIdeal.Value.run (F := Ideal) m' ρ')

end Cert.ReferenceIdeal.RefValue

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.LibHostRowSum.lean ====
/-
  The host's float sum along the rows of a matrix, read at a row, at the ideal values.

  For an `M × N` array `x` summed over its second axis from an initial value, entry `p` of the result is the initial
  value plus the sum of row `p`'s `N` entries.
-/
import Idealize.ShloMosaic.Lib.ValueIdx
import Idealize.ShloMosaic.PureOps.Ideal.Laws

noncomputable section

open scoped BigOperators

namespace Cert.Lib.HostRowSum

open Idealize.ShloMosaic Idealize.ShloMosaic.ValueIdx

variable {M N : Nat}

/-- Over row `p`, the index with `k` put on the summed axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The host's sum over the second axis of an `M × N` array, at row `p`: the initial value plus the row's sum. -/
theorem hostRowSum_apply {φ : FTy} {u : Shape} (x : FVec Ideal ⟨2, ![M, N]⟩ φ) (init : u.Idx → Ideal φ)
    (h' : (⟨2, ![M, N]⟩ : Shape).ReducesTo [1] ⟨1, ![M]⟩) (hu : 0 < u.numel)
    (h : (⟨2, ![M, N]⟩ : Shape).Reduces [1] ⟨1, ![M]⟩) (p : Fin M) :
    Host.reduceAdd x init h' hu (ix1 p) = init (Shape.Idx.first hu) + ∑ k : Fin N, x (ix2 p k) := by
  show Ideal.hostReduceAdd h' x (init (Shape.Idx.first hu)) (ix1 p) = _
  rw [Ideal.hostReduceAdd_single h' h]
  exact congrArg (init (Shape.Idx.first hu) + ·) (Finset.sum_congr rfl fun k _ => congrArg x (lift_row h p k))

end Cert.Lib.HostRowSum

end
-- ==== Proof.PreFacts.lean ====
/-
  What the precondition says of the four argument arrays.

  The precondition is a conjunction of five tests, each a comparison at every entry reduced by "and" over every axis:
  |entry| < +∞ for each of x, A, W, b, and 0 < the row sum of A + I for each row. Read back at the extended reals, the
  first four say that every entry is a real number (an extended real whose absolute value is below ⊤ is neither end),
  and the fifth that every row sum of A + I is positive: together, the domain on which the two arrangements of the
  layer agree.
-/
import proofs.«155826_j5798205849837_2_alg».proof.Pre_finite_inputs
import proofs.«155826_j5798205849837_2_alg».proof.Proof.Spec
import proofs.«155826_j5798205849837_2_alg».proof.Proof.EyeWord
import proofs.«155826_j5798205849837_2_alg».proof.Proof.LibFiniteEntry
import proofs.«155826_j5798205849837_2_alg».proof.Proof.LibHostRowSum
import Idealize.ShloMosaic.Lib.ReduceAll
import Idealize.ShloMosaic.Lib.Pipeline.Value

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- A scalar spread over a shape reads the scalar everywhere. -/
theorem bcast_scalar {α : Type} {t : Shape} (bc : S_.BroadcastsInDim t (![] : Fin 0 → Fin t.rank)) (y : S_.Idx → α)
    (i : t.Idx) : broadcastInDim t ![] bc y i = y ix0 :=
  broadcastInDim_apply _ bc y i ix0 (fun a => a.elim0)

/-! ## Every entry a real -/

/-- The test "every |entry| is below +∞", true, says every entry of the array is a real number. -/
theorem real_of_conj {s : Shape} {axes : List (Fin s.rank)} (x : FVec Ideal s .f32)
    (bc : S_.BroadcastsInDim s (![] : Fin 0 → Fin s.rank)) (rt : s.ReducesTo axes S_) (hS : 0 < S_.numel)
    (e : Host.reduce IntOp.andi (cmpf .olt (Host.absf x) (broadcastInDim s ![] bc (constant (F := Ideal) S_ .f32 0x7F800000#32)))
      (constantI S_ 1 1#1) rt hS ix0 = 1#1) (i : s.Idx) : ∃ r : ℝ, x i = (r : EReal) :=
  ProofLib.Finite.all_real_of_all_abs_lt_inf x _ (fun i => bcast_scalar bc _ i) _ rt hS ix0 e i

/-! ## Every row sum of A + I positive -/

/-- The identity matrix as the compared counters turned into a number, as an array. -/
abbrev eyeArr (bcI : S_.BroadcastsInDim S8192x8192 (![] : Fin 0 → Fin S8192x8192.rank)) : FVec Ideal S8192x8192 .f32 :=
  uitofp .f32 (cmpi .eq (addi (iotaInDim S8192x8192 32 0) (broadcastInDim S8192x8192 ![] bcI (constantI S_ 32 0#32)))
    (iotaInDim S8192x8192 32 1))

/-- Its entry at (n, j). -/
theorem eyeArr_apply (bcI : S_.BroadcastsInDim S8192x8192 (![] : Fin 0 → Fin S8192x8192.rank)) (n j : Fin 8192) :
    eyeArr bcI (ix2 n j) = Cert.Gcn.eye n j := by
  show FloatOps.uitofp (F := Ideal) .f32 (IntOp.cmpi .eq (IntOp.addi (BitVec.ofNat 32 n.val)
    (broadcastInDim S8192x8192 ![] bcI (constantI S_ 32 0#32) (ix2 n j))) (BitVec.ofNat 32 j.val)) = _
  rw [bcast_scalar]
  exact Cert.EyeWord.eyeWord n j

/-- Row n of A + I summed from the zero word. -/
theorem rowsum_apply (A : FVec Ideal S8192x8192 .f32)
    (bcI : S_.BroadcastsInDim S8192x8192 (![] : Fin 0 → Fin S8192x8192.rank))
    (rtRow : S8192x8192.ReducesTo [1] S8192) (hS : 0 < S_.numel) (n : Fin 8192) :
    Host.reduceAdd (addf A (eyeArr bcI)) (constant (F := Ideal) S_ .f32 0x00000000#32) rtRow hS (ix1 n)
      = 0 + ∑ j : Fin 8192, Cert.Gcn.ahat A n j := by
  rw [Cert.Lib.HostRowSum.hostRowSum_apply _ _ rtRow hS (by decide) n]
  show Ideal.ofBits .f32 0x00000000#32 + _ = _
  rw [Ideal.ofBits_zero_f32]
  refine congrArg (0 + ·) (Finset.sum_congr rfl fun j _ => ?_)
  show A (ix2 n j) + eyeArr bcI (ix2 n j) = _
  rw [eyeArr_apply]
  rfl

/-- The test "every row sum of A + I is above 0", true, says just that. -/
theorem pos_of_conj (A : FVec Ideal S8192x8192 .f32)
    (bcI : S_.BroadcastsInDim S8192x8192 (![] : Fin 0 → Fin S8192x8192.rank))
    (rtRow : S8192x8192.ReducesTo [1] S8192) (hS : 0 < S_.numel)
    (bcZ : S_.BroadcastsInDim S8192 (![] : Fin 0 → Fin S8192.rank)) (rtAll : S8192.ReducesTo [0] S_)
    (e : Host.reduce IntOp.andi
      (cmpf .ogt (Host.reduceAdd (addf A (eyeArr bcI)) (constant (F := Ideal) S_ .f32 0x00000000#32) rtRow hS)
        (broadcastInDim S8192 ![] bcZ (constant (F := Ideal) S_ .f32 0x00000000#32)))
      (constantI S_ 1 1#1) rtAll hS ix0 = 1#1) (n : Fin 8192) :
    0 < 0 + ∑ j : Fin 8192, Cert.Gcn.ahat A n j := by
  have hi := Host.reduce_andi_all _ _ rtAll hS ix0 e (ix1 n)
  have hi' : Ideal.cmp .ogt
      (Host.reduceAdd (addf A (eyeArr bcI)) (constant (F := Ideal) S_ .f32 0x00000000#32) rtRow hS (ix1 n))
      (broadcastInDim S8192 ![] bcZ (constant (F := Ideal) S_ .f32 0x00000000#32) (ix1 n)) = 1#1 := hi
  rw [rowsum_apply, bcast_scalar] at hi'
  have hz : constant (F := Ideal) S_ .f32 0x00000000#32 ix0 = (0 : EReal) := Ideal.ofBits_zero_f32
  rw [hz, zero_add] at hi'
  rw [zero_add]
  unfold Ideal.cmp at hi'
  by_contra hn
  simp [hn] at hi'

/-! ## The domain -/

/-- The precondition, true, puts the four arrays in the domain: every entry a real, every row sum of A + I positive. -/
theorem dom_of_pre [Cert.Pre_finite_inputs.Facts] (x : FVec Ideal S8192x128 .f32) (A : FVec Ideal S8192x8192 .f32)
    (W : FVec Ideal S128x128 .f32) (b : FVec Ideal S128 .f32)
    (h : Cert.Pre_finite_inputs.fn (F := Ideal) x A W b = fun _ => 1#1) : Cert.Gcn.Dom x A W b := by
  have h0 := congrFun h ix0
  dsimp only [Cert.Pre_finite_inputs.fn, Cert.Pre_finite_inputs.fn_part1, andi] at h0
  obtain ⟨h18, h29⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨real_of_conj x _ _ _ h3, real_of_conj A _ _ _ h7, real_of_conj W _ _ _ h12, real_of_conj b _ _ _ h17,
    pos_of_conj A _ _ _ _ _ h29⟩

end Cert.PreFacts

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.LibBatchNormVar.lean ====
/-
  Batch statistics of a column of finitely many REAL entries, read on the extended reals.

  A column `h i` (`i` over a finite index type of `n > 0` elements) has two spellings of its biased variance:
  the mean of the squared deviations from the mean, `(1/n) Σ (h i − μ)²` with `μ = (1/n) Σ h i`, and the mean
  of the squares less the squared mean, `(1/n) Σ (h i)² − μ²`, clamped below at zero. Over the reals the two are
  one number, and it is non-negative, so the clamp is the identity (`var_clamped_eq`). On the extended reals this
  needs every entry to be a real: with an infinite entry `⊤ − ⊤` appears and the two spellings part.

  Beside it: the inclusion of the reals commutes with finite sums (`coe_sum`) and with a quotient by a non-zero
  real at the ideal instance's division (`div_coe_coe`); a real factor `c ≥ 0` distributes over ANY finite sum of
  extended reals, infinite terms included (`mul_sum_of_nonneg_real`); a sum over `T · R` rows is the sum over
  `T` blocks of the sums over the `R` rows of a block (`sum_blocks`, row `r + R · t` in block `t`); and a running
  total that starts at zero and grows by `b t` at step `t` ends at `Σ b t` (`acc_eq_sum`).
-/
import Idealize.ShloMosaic.PureOps.Ideal
import Mathlib.Algebra.BigOperators.Fin
import Mathlib.Tactic.FieldSimp
import Mathlib.Tactic.Ring
import Mathlib.Tactic.Linarith

noncomputable section

namespace ProofLib.BatchNorm

local notation "idiv" => Idealize.ShloMosaic.Ideal.div

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- At the ideal instance a real divided by a non-zero real is the real quotient. -/
theorem div_coe_coe (x : ℝ) {n : ℝ} (hn : n ≠ 0) : idiv (x : EReal) (n : EReal) = ((x / n : ℝ) : EReal) := by
  rw [Idealize.ShloMosaic.Ideal.div_coe hn, ← EReal.coe_mul, mul_one_div]

/-- The sum of the squared deviations from any centre `μ`, expanded. -/
theorem real_sum_sq_dev [Fintype ι] (f : ι → ℝ) (μ : ℝ) {n : ℝ} (hcard : (Fintype.card ι : ℝ) = n) :
    ∑ i, (f i - μ) * (f i - μ) = (∑ i, f i * f i) - 2 * μ * (∑ i, f i) + n * (μ * μ) := by
  calc ∑ i, (f i - μ) * (f i - μ) = ∑ i, (f i * f i - 2 * μ * f i + μ * μ) :=
        Finset.sum_congr rfl fun i _ => by ring
    _ = (∑ i, f i * f i) - 2 * μ * (∑ i, f i) + n * (μ * μ) := by
        rw [Finset.sum_add_distrib, Finset.sum_sub_distrib, ← Finset.mul_sum, Finset.sum_const, Finset.card_univ,
          nsmul_eq_mul, hcard]

/-- Over the reals: the mean of the squares less the squared mean is the mean of the squared deviations from the mean. -/
theorem real_var_eq [Fintype ι] (f : ι → ℝ) {n : ℝ} (hn : n ≠ 0) (hcard : (Fintype.card ι : ℝ) = n) :
    (∑ i, f i * f i) / n - ((∑ i, f i) / n) * ((∑ i, f i) / n)
      = (∑ i, (f i - (∑ j, f j) / n) * (f i - (∑ j, f j) / n)) / n := by
  rw [real_sum_sq_dev f _ hcard]
  field_simp
  ring

/-- The mean of squared deviations is non-negative. -/
theorem real_var_nonneg [Fintype ι] (f : ι → ℝ) (μ : ℝ) {n : ℝ} (hn : 0 < n) :
    0 ≤ (∑ i, (f i - μ) * (f i - μ)) / n :=
  div_nonneg (Finset.sum_nonneg fun i _ => mul_self_nonneg _) hn.le

/-- On the extended reals, for a column of REAL entries: the mean of squares less the squared mean, clamped below at
    zero, is the mean of the squared deviations from the mean (divisions the ideal instance's, by the real `n`, the
    number of entries). -/
theorem var_clamped_eq [Fintype ι] (h : ι → EReal) (f : ι → ℝ) (hh : ∀ i, h i = (f i : EReal))
    {n : ℝ} (hn : 0 < n) (hcard : (Fintype.card ι : ℝ) = n) :
    max (idiv (∑ i, h i * h i) (n : EReal) - idiv (∑ i, h i) (n : EReal) * idiv (∑ i, h i) (n : EReal)) 0
      = idiv (∑ i, (h i - idiv (∑ j, h j) (n : EReal)) * (h i - idiv (∑ j, h j) (n : EReal))) (n : EReal) := by
  have hn0 : n ≠ 0 := hn.ne'
  have e1 : ∑ i, h i = ((∑ i, f i : ℝ) : EReal) := by
    rw [coe_sum]; exact Finset.sum_congr rfl fun i _ => hh i
  have e2 : ∑ i, h i * h i = ((∑ i, f i * f i : ℝ) : EReal) := by
    rw [coe_sum]; exact Finset.sum_congr rfl fun i _ => by rw [hh i, EReal.coe_mul]
  have e4 : ∑ i, (h i - (((∑ j, f j) / n : ℝ) : EReal)) * (h i - (((∑ j, f j) / n : ℝ) : EReal))
      = ((∑ i, (f i - (∑ j, f j) / n) * (f i - (∑ j, f j) / n) : ℝ) : EReal) := by
    rw [coe_sum]; exact Finset.sum_congr rfl fun i _ => by rw [hh i, EReal.coe_mul, EReal.coe_sub]
  rw [e1, e2, div_coe_coe _ hn0, div_coe_coe _ hn0, e4, div_coe_coe _ hn0, ← EReal.coe_mul, ← EReal.coe_sub,
    real_var_eq f hn0 hcard]
  exact max_eq_left (EReal.coe_nonneg.mpr (real_var_nonneg f _ hn))

/-- The mean of a column of real entries is a real: the ideal instance's quotient of their sum by `n ≠ 0`. -/
theorem mean_coe [Fintype ι] (h : ι → EReal) (f : ι → ℝ) (hh : ∀ i, h i = (f i : EReal)) {n : ℝ} (hn : n ≠ 0) :
    idiv (∑ i, h i) (n : EReal) = (((∑ i, f i) / n : ℝ) : EReal) := by
  have e1 : ∑ i, h i = ((∑ i, f i : ℝ) : EReal) := by
    rw [coe_sum]; exact Finset.sum_congr rfl fun i _ => hh i
  rw [e1, div_coe_coe _ hn]

/-- A real factor `c ≥ 0` distributes over a finite sum of extended reals, whatever the terms (an infinite term
    included: `c · (⊤ + ⊥) = c · ⊤ + c · ⊥` for `0 ≤ c < ⊤`). -/
theorem mul_sum_of_nonneg_real (c : ℝ) (hc : 0 ≤ c) (s : Finset ι) (g : ι → EReal) :
    (c : EReal) * ∑ i ∈ s, g i = ∑ i ∈ s, (c : EReal) * g i := by
  classical
  refine Finset.induction_on s ?_ ?_
  · simp
  · intro a s ha ih
    rw [Finset.sum_insert ha, Finset.sum_insert ha,
      EReal.left_distrib_of_nonneg_of_ne_top (EReal.coe_nonneg.mpr hc) (EReal.coe_ne_top c), ih]

/-- A sum over `T · R` rows is the sum over `T` blocks of the sums over the `R` rows of each block: row
    `r + R · t` is row `r` of block `t`. -/
theorem sum_blocks {M : Type*} [AddCommMonoid M] (T R : ℕ) (f : Fin (T * R) → M) :
    ∑ i, f i = ∑ t : Fin T, ∑ r : Fin R, f (finProdFinEquiv (t, r)) :=
  (Equiv.sum_comp finProdFinEquiv f).symm.trans (Fintype.sum_prod_type _)

/-- A running total that starts at zero and grows by `b t` at step `t` ends, after `T` steps, at `Σ_{t < T} b t`. -/
theorem acc_eq_sum {M : Type*} [AddCommMonoid M] (b : ℕ → M) (acc : ℕ → M) (h0 : acc 0 = 0) :
    ∀ T : ℕ, (∀ t, t < T → acc (t + 1) = acc t + b t) → acc T = ∑ t ∈ Finset.range T, b t := by
  intro T
  induction T with
  | zero => intro _; simp [h0]
  | succ k ih =>
    intro hs
    rw [hs k (Nat.lt_succ_self k), Finset.sum_range_succ, ih fun t ht => hs t (Nat.lt_succ_of_lt ht)]

end ProofLib.BatchNorm

end
-- ==== Proof.Law1.lean ====
/-
  General facts the law between the two sides rests on, stated apart from the layer itself:
  the word of the exponent -1/2, the power  s ^ (-1/2)  of a positive real as the reciprocal root,
  the sum over 8192 columns as eight tiles of 1024, and the accumulation over column tiles of a
  real matrix against a real array in closed form.
-/
import proofs.«155826_j5798205849837_2_alg».proof.Proof.Spec
import proofs.«155826_j5798205849837_2_alg».proof.Proof.LibRealOps
import proofs.«155826_j5798205849837_2_alg».proof.Proof.LibBatchNormVar
import Mathlib

noncomputable section

namespace Cert.Gcn

open Idealize.ShloMosaic Idealize.ShloMosaic.ValueIdx

/-- The word 0xBF000000 denotes the real -1/2. -/
theorem ofBits_neg_half : Ideal.ofBits .f32 0xBF000000#32 = ((-(1 / 2) : ℝ) : EReal) := by
  simp [Ideal.ofBits, Ideal.ieee, -EReal.coe_mul]; norm_num

/-- For a positive real s the power  s ^ (-1/2)  is the reciprocal of the square root. -/
theorem pow_neg_half {s : ℝ} (hs : 0 < s) :
    Ideal.pow (s : EReal) (Ideal.ofBits .f32 0xBF000000#32) = (((Real.sqrt s)⁻¹ : ℝ) : EReal) := by
  have e : s ^ (-(1 / 2) : ℝ) = (Real.sqrt s)⁻¹ := by rw [Real.rpow_neg hs.le, Real.sqrt_eq_rpow]
  rw [ofBits_neg_half, Ideal.pow_coe_coe]
  exact congrArg Real.toEReal e

/-- A sum over the 8192 columns is the sum over the eight tiles of the sums over a tile's 1024 columns. -/
theorem sum_cols {M : Type*} [AddCommMonoid M] (g : Fin 8192 → M) :
    ∑ j, g j = ∑ T : Fin 8, ∑ c : Fin 1024, g (col T c) := by
  refine (ProofLib.BatchNorm.sum_blocks 8 1024 g).trans ?_
  refine Finset.sum_congr rfl fun T _ => Finset.sum_congr rfl fun c _ => congrArg g (Fin.ext ?_)
  show c.val + 1024 * T.val = T.val * 1024 + c.val
  omega

/-- One step of the accumulation, unfolded. -/
theorem acc_succ (A : SA.Idx → EReal) (S : SX.Idx → EReal) (n : Fin 8192) (f : Fin 128) (J : ℕ) (h : J + 1 ≤ 8) :
    acc A S n f (J + 1) h
      = if J = n.val / 1024
          then acc A S n f J (by omega) + tileProd A S ⟨J, by omega⟩ n f + S (ix2 n f)
          else acc A S n f J (by omega) + tileProd A S ⟨J, by omega⟩ n f := rfl

/-- A tile's product of a real matrix against a real array, as a real. -/
def tileR (Ar : SA.Idx → ℝ) (Sr : SX.Idx → ℝ) (n : Fin 8192) (f : Fin 128) (T : Fin 8) : ℝ :=
  ∑ c : Fin 1024, Ar (ix2 n (col T c)) * Sr (ix2 (col T c) f)

theorem tileProd_real (Ar : SA.Idx → ℝ) (Sr : SX.Idx → ℝ) (T : Fin 8) (n : Fin 8192) (f : Fin 128) :
    tileProd (fun i => (Ar i : EReal)) (fun i => (Sr i : EReal)) T n f = (tileR Ar Sr n f T : EReal) := by
  unfold tileProd tileR
  rw [zero_add]
  exact ProofLib.RealOps.dot_coe _ _ _

/-- Taking one more tile into a sum over the tiles below a bound. -/
theorem sum_below_succ (t : Fin 8 → ℝ) (J : ℕ) (hJ : J < 8) :
    (∑ T : Fin 8, if T.val < J + 1 then t T else 0) = (∑ T : Fin 8, if T.val < J then t T else 0) + t ⟨J, hJ⟩ := by
  have hT : ∀ T : Fin 8, (if T.val < J + 1 then t T else 0)
      = (if T.val < J then t T else 0) + (if T = ⟨J, hJ⟩ then t T else 0) := by
    intro T
    by_cases h1 : T.val < J
    · have h2 : T ≠ ⟨J, hJ⟩ := fun e => by rw [e] at h1; exact absurd h1 (lt_irrefl _)
      rw [if_pos h1, if_pos (Nat.lt_succ_of_lt h1), if_neg h2, add_zero]
    · by_cases h2 : T = ⟨J, hJ⟩
      · rw [if_neg h1, if_pos h2, if_pos (by rw [h2]; exact Nat.lt_succ_self J), zero_add]
      · have h3 : ¬ T.val < J + 1 := fun h3 => h2 (Fin.ext (by show T.val = J; omega))
        rw [if_neg h1, if_neg h2, if_neg h3, add_zero]
  rw [Finset.sum_congr rfl fun T _ => hT T, Finset.sum_add_distrib, Finset.sum_ite_eq' Finset.univ ⟨J, hJ⟩ t,
    if_pos (Finset.mem_univ _)]

/-- The accumulator of a real matrix against a real array after the first J tiles: the tiles' products below J,
    and the array's own row once the diagonal's tile has passed. -/
theorem acc_real (Ar : SA.Idx → ℝ) (Sr : SX.Idx → ℝ) (n : Fin 8192) (f : Fin 128) : ∀ (J : ℕ) (h : J ≤ 8),
    acc (fun i => (Ar i : EReal)) (fun i => (Sr i : EReal)) n f J h
      = (((∑ T : Fin 8, if T.val < J then tileR Ar Sr n f T else 0)
          + (if n.val / 1024 < J then Sr (ix2 n f) else 0) : ℝ) : EReal)
  | 0, _ => by
    show (0 : EReal) = _
    simp
  | J + 1, h => by
    rw [acc_succ, acc_real Ar Sr n f J (by omega), tileProd_real, sum_below_succ _ J (by omega)]
    by_cases hJ : J = n.val / 1024
    · have h1 : ¬ n.val / 1024 < J := by omega
      have h2 : n.val / 1024 < J + 1 := by omega
      rw [if_pos hJ, if_neg h1, if_pos h2, add_zero, ← EReal.coe_add, ← EReal.coe_add]
    · rw [if_neg hJ, ← EReal.coe_add]
      refine congrArg Real.toEReal ?_
      by_cases h1 : n.val / 1024 < J
      · rw [if_pos h1, if_pos (by omega : n.val / 1024 < J + 1)]; ring
      · rw [if_neg h1, if_neg (by omega : ¬ n.val / 1024 < J + 1)]; ring

/-- After all eight tiles: the full product row and the array's own row. -/
theorem acc_real_full (Ar : SA.Idx → ℝ) (Sr : SX.Idx → ℝ) (n : Fin 8192) (f : Fin 128) :
    acc (fun i => (Ar i : EReal)) (fun i => (Sr i : EReal)) n f 8 le_rfl
      = (((∑ j : Fin 8192, Ar (ix2 n j) * Sr (ix2 j f)) + Sr (ix2 n f) : ℝ) : EReal) := by
  have e1 : (∑ T : Fin 8, if T.val < 8 then tileR Ar Sr n f T else 0) = ∑ j : Fin 8192, Ar (ix2 n j) * Sr (ix2 j f) := by
    rw [sum_cols]
    exact Finset.sum_congr rfl fun T _ => by rw [if_pos T.isLt]; rfl
  have e2 : (if n.val / 1024 < 8 then Sr (ix2 n f) else 0) = Sr (ix2 n f) := if_pos (by have := n.isLt; omega)
  rw [acc_real Ar Sr n f 8 le_rfl, e1, e2]

end Cert.Gcn

end
-- ==== Proof.Law.lean ====
/-
  The law between the two sides of the layer  D^(-1/2) (A + I) D^(-1/2) (x Wᵀ + b) .

  Where every entry is a real and every row sum  s_n = Σ_j A_nj + 1  of A + I is positive, both sides compute with the
  same positive real  d_n = (√ s_n)⁻¹ : one as  rsqrt (Σ_j A_nj + 1) , the other as  (Σ_j (A_nj + δ_nj)) ^ (-1/2) .
  With S the support, the side that scales rows first ends at  d_n (Σ_j A_nj (d_j S_jf) + d_n S_nf) , the side that
  normalises the matrix at  Σ_j (d_n (A_nj + δ_nj) d_j) S_jf ; the Kronecker delta picks the one term  d_n d_n S_nf
  out of the second sum, and the rest is distributivity in the reals.
-/
import proofs.«155826_j5798205849837_2_alg».proof.Proof.Law1

noncomputable section

namespace Cert.Gcn

open Idealize.ShloMosaic Idealize.ShloMosaic.ValueIdx

/-- The law in the reals, over any finite index type: a is row n of the matrix, d the scaling column, S a column
    of the support. -/
theorem real_law {ι : Type*} [Fintype ι] [DecidableEq ι] (d S a : ι → ℝ) (n : ι) :
    d n * ((∑ j, a j * (d j * S j)) + d n * S n) = ∑ j, d n * (a j + if n = j then 1 else 0) * d j * S j := by
  have h : ∀ j, d n * (a j + if n = j then 1 else 0) * d j * S j
      = d n * (a j * (d j * S j)) + (if n = j then d n * d j * S j else 0) := by
    intro j
    by_cases e : n = j
    · rw [if_pos e, if_pos e]; ring
    · rw [if_neg e, if_neg e]; ring
  rw [Finset.sum_congr rfl fun j _ => h j, Finset.sum_add_distrib, ← Finset.mul_sum,
    Finset.sum_ite_eq Finset.univ n fun j => d n * d j * S j, if_pos (Finset.mem_univ _)]
  ring

section Real

variable (xr : SX.Idx → ℝ) (Ar : SA.Idx → ℝ) (Wr : SW.Idx → ℝ) (br : SB.Idx → ℝ)

/-- The support as a real. -/
def suppR (n : Fin 8192) (f : Fin 128) : ℝ := (∑ k : Fin 128, xr (ix2 n k) * Wr (ix2 f k)) + br (ix1 f)

/-- The row sum of A + I as a real. -/
def rowS (n : Fin 8192) : ℝ := (∑ j : Fin 8192, Ar (ix2 n j)) + 1

/-- D^(-1/2) at row n as a real. -/
def dR (n : Fin 8192) : ℝ := (Real.sqrt (rowS Ar n))⁻¹

variable {x : SX.Idx → EReal} {A : SA.Idx → EReal} {W : SW.Idx → EReal} {b : SB.Idx → EReal}

theorem support_real (hx : ∀ i, x i = (xr i : EReal)) (hW : ∀ i, W i = (Wr i : EReal)) (hb : ∀ i, b i = (br i : EReal))
    (n : Fin 8192) (f : Fin 128) : support x W b n f = (suppR xr Wr br n f : EReal) := by
  unfold support suppR
  have e : ∑ k : Fin 128, x (ix2 n k) * W (ix2 f k) = ∑ k : Fin 128, (xr (ix2 n k) : EReal) * (Wr (ix2 f k) : EReal) :=
    Finset.sum_congr rfl fun k _ => by rw [hx, hW]
  rw [zero_add, hb, EReal.coe_add, ← ProofLib.RealOps.dot_coe, e]

/-- The row sum with the diagonal counted as the literal 1. -/
theorem rowK_real (hA : ∀ i, A i = (Ar i : EReal)) (n : Fin 8192) :
    (0 + ∑ j : Fin 8192, A (ix2 n j)) + 1 = (rowS Ar n : EReal) := by
  unfold rowS
  have e : ∑ j : Fin 8192, A (ix2 n j) = ∑ j : Fin 8192, (Ar (ix2 n j) : EReal) := Finset.sum_congr rfl fun j _ => hA _
  rw [zero_add, EReal.coe_add, ProofLib.RealOps.coe_sum, EReal.coe_one, e]

theorem ahat_real (hA : ∀ i, A i = (Ar i : EReal)) (n j : Fin 8192) :
    ahat A n j = ((Ar (ix2 n j) + (if n = j then 1 else 0) : ℝ) : EReal) := by
  unfold ahat eye
  rw [hA, EReal.coe_add]
  by_cases e : n = j
  · rw [if_pos e, if_pos e, EReal.coe_one]
  · rw [if_neg e, if_neg e, EReal.coe_zero]

/-- The row sum of A + I with the diagonal added entry by entry: the same real. -/
theorem rowR_real (hA : ∀ i, A i = (Ar i : EReal)) (n : Fin 8192) :
    0 + ∑ j : Fin 8192, ahat A n j = (rowS Ar n : EReal) := by
  rw [zero_add, Finset.sum_congr rfl fun j _ => ahat_real Ar hA n j, ← ProofLib.RealOps.coe_sum,
    Finset.sum_add_distrib, Finset.sum_ite_eq Finset.univ n fun _ => (1 : ℝ), if_pos (Finset.mem_univ _)]
  rfl

theorem dinvK_real (hA : ∀ i, A i = (Ar i : EReal)) {n : Fin 8192} (hs : 0 < rowS Ar n) :
    dinvK A n = (dR Ar n : EReal) := by
  unfold dinvK
  rw [rowK_real Ar hA n, ProofLib.RealOps.rsqrt_coe_of_pos hs]
  rfl

theorem dinvR_real (hA : ∀ i, A i = (Ar i : EReal)) {n : Fin 8192} (hs : 0 < rowS Ar n) :
    dinvR A n = (dR Ar n : EReal) := by
  unfold dinvR
  rw [rowR_real Ar hA n, pow_neg_half hs]
  rfl

end Real

/-- The two sides agree wherever every entry is a real and every row sum of A + I is positive. -/
theorem outK_eq_outR (x : SX.Idx → EReal) (A : SA.Idx → EReal) (W : SW.Idx → EReal) (b : SB.Idx → EReal)
    (h : Dom x A W b) (n : Fin 8192) (f : Fin 128) : outK x A W b n f = outR x A W b n f := by
  obtain ⟨hx, hA, hW, hb, hpos⟩ := h
  choose xr hxr using hx
  choose Ar hAr using hA
  choose Wr hWr using hW
  choose br hbr using hb
  have hs : ∀ m, 0 < rowS Ar m := fun m => by
    have hm := hpos m
    rw [rowR_real Ar hAr m] at hm
    exact EReal.coe_pos.mp hm
  -- the row-scaled support is an array of reals
  let Sr : SX.Idx → ℝ := fun i => dR Ar (i 0) * suppR xr Wr br (i 0) (i 1)
  have hsc : ∀ (m : Fin 8192) (g : Fin 128), scaled x A W b m g = ((dR Ar m * suppR xr Wr br m g : ℝ) : EReal) := by
    intro m g
    unfold scaled
    rw [dinvK_real Ar hAr (hs m), support_real xr Wr br hxr hWr hbr, ← EReal.coe_mul]
  have hS : scaledArr x A W b = fun i => (Sr i : EReal) := funext fun i => hsc (i 0) (i 1)
  have hAfun : A = fun i => (Ar i : EReal) := funext hAr
  have hK : outK x A W b n f
      = ((dR Ar n * ((∑ j, Ar (ix2 n j) * (dR Ar j * suppR xr Wr br j f)) + dR Ar n * suppR xr Wr br n f) : ℝ) : EReal) := by
    unfold outK
    rw [hS, dinvK_real Ar hAr (hs n), hAfun, acc_real_full Ar Sr n f, ← EReal.coe_mul]
  have hR : outR x A W b n f
      = ((∑ j, dR Ar n * (Ar (ix2 n j) + if n = j then 1 else 0) * dR Ar j * suppR xr Wr br j f : ℝ) : EReal) := by
    unfold outR
    rw [zero_add, ProofLib.RealOps.coe_sum]
    refine Finset.sum_congr rfl fun j _ => ?_
    unfold anorm
    rw [dinvR_real Ar hAr (hs n), dinvR_real Ar hAr (hs j), ahat_real Ar hAr n j,
      support_real xr Wr br hxr hWr hbr, ← EReal.coe_mul, ← EReal.coe_mul, ← EReal.coe_mul]
  rw [hK, hR]
  exact congrArg Real.toEReal <| real_law (dR Ar) (fun j => suppR xr Wr br j f) (fun j => Ar (ix2 n j)) n

end Cert.Gcn

end
-- ==== Proof.lean ====
/-
  The five claims about a graph-convolution layer  D^(-1/2) (A + I) D^(-1/2) (x Wᵀ + b)  computed two ways.

  The three frames: the two three-region programs run through their regions from boundary to boundary
  (the run modules), the host reference through its generated run. The idealization rewrote nothing.

  The algebraic claim: at the ideal instance the three-region program ends with the row-scaled support
  accumulated against the adjacency over eight column tiles, the identity's share added once, and the row
  scaled at the end; the reference with the normalised matrix times the support. Where every entry is a
  real number and every row sum of A + I is positive — what the precondition says — the reciprocal root
  and the power -1/2 are one positive real, and the two arrangements are equal by distributivity.
-/
import proofs.«155826_j5798205849837_2_alg».proof.Defs
import proofs.«155826_j5798205849837_2_alg».proof.Proof.Gen.Kernel
import proofs.«155826_j5798205849837_2_alg».proof.Proof.Gen.KernelIdeal
import proofs.«155826_j5798205849837_2_alg».proof.Proof.Gen.ReferenceIdeal
import proofs.«155826_j5798205849837_2_alg».proof.Proof.Gen.Pre_finite_inputs
import proofs.«155826_j5798205849837_2_alg».proof.Proof.Gen.ReferenceIdeal.Run
import proofs.«155826_j5798205849837_2_alg».proof.Proof.Gen.ReferenceIdeal.Read
import proofs.«155826_j5798205849837_2_alg».proof.Proof.Kernel.Run
import proofs.«155826_j5798205849837_2_alg».proof.Proof.KernelIdeal.Run
import proofs.«155826_j5798205849837_2_alg».proof.Proof.KernelIdeal.Result
import proofs.«155826_j5798205849837_2_alg».proof.Proof.RefValue
import proofs.«155826_j5798205849837_2_alg».proof.Proof.PreFacts
import proofs.«155826_j5798205849837_2_alg».proof.Proof.Law
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, on every core, at the normalised product of the launch arguments. -/
theorem algebraic : Cert.algebraic_KernelIdeal_ReferenceIdeal := by
  intro m ρ m' ρ' hpre hagree
  refine ⟨fun c => fun i => Cert.Gcn.outR
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1), ?_, ?_⟩
  · -- the three-region program: its result is the accumulated form, equal to the normalised product on the domain
    refine (θ_run Cert.KernelIdeal.defs _ _).mono (fun r h c => ?_) (Cert.KernelIdeal.Hand.run_main (F := Ideal) m ρ)
    have hdom := Cert.PreFacts.dom_of_pre _ _ _ _ (hpre c)
    refine ⟨?_, ?_, ?_, ?_, ?_⟩
    · refine ((h c _ (Cert.KernelIdeal.Hand.mem_uc Cert.KernelIdeal.main_v0 (by decide))).trans
        (Cert.KernelIdeal.Hand.result_outK m ρ c)).trans ?_
      funext i
      exact Cert.Gcn.outK_eq_outR _ _ _ _ hdom (i 0) (i 1)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
    · exact (h c _ (Cert.KernelIdeal.Hand.mem_uc Cert.KernelIdeal.main_arg3 (by decide))).trans (Cert.KernelIdeal.Hand.W4_main_arg3 m ρ c)
  · -- the reference: its generated run read as the normalised product, the arguments agreeing
    refine (θ_run Cert.ReferenceIdeal.defs _ _).mono (fun r h c => ⟨?_, (h c).2⟩) (Cert.ReferenceIdeal.RefValue.run_outR m' ρ')
    rw [(h c).1, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
